-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x6x256x256 : Shape := ⟨5, ![8, 16, 6, 256, 256]⟩
abbrev S_ : Shape := ⟨0, ![]⟩

class Facts : Prop where
  bcast_S_S8x16x6x256x256 : S_.BroadcastsInDim S8x16x6x256x256 (![] : Fin 0 → Fin S8x16x6x256x256.rank)
  reducesTo_S8x16x6x256x256_S_d0_1_2_3_4 : S8x16x6x256x256.ReducesTo [0, 1, 2, 3, 4] S_
  h_S_ : 0 < S_.numel

variable [Facts]

def fn {F : FTy → Type} [FloatOps F] (main_arg0 : FVec F S8x16x6x256x256 .f32) (main_arg1 : FVec F S8x16x6x256x256 .f32) : IVec S_ 1 :=
  let main_v0 : FVec F S8x16x6x256x256 .f32 := Host.absf main_arg0
  let main_cst : FVec F S_ .f32 := constant S_ .f32 0x7F800000#32
  let main_v1 : FVec F S8x16x6x256x256 .f32 := broadcastInDim S8x16x6x256x256 ![] bcast_S_S8x16x6x256x256 main_cst
  let main_v2 : IVec S8x16x6x256x256 1 := cmpf .olt main_v0 main_v1
  let main_c : IVec S_ 1 := constantI S_ 1 1#1
  let main_v3 : IVec S_ 1 := (fun x v => Host.reduce IntOp.andi x v reducesTo_S8x16x6x256x256_S_d0_1_2_3_4 h_S_) main_v2 main_c
  let main_v4 : FVec F S8x16x6x256x256 .f32 := Host.absf main_arg1
  let main_cst_0 : FVec F S_ .f32 := constant S_ .f32 0x7F800000#32
  let main_v5 : FVec F S8x16x6x256x256 .f32 := broadcastInDim S8x16x6x256x256 ![] bcast_S_S8x16x6x256x256 main_cst_0
  let main_v6 : IVec S8x16x6x256x256 1 := cmpf .olt main_v4 main_v5
  let main_c_1 : IVec S_ 1 := constantI S_ 1 1#1
  let main_v7 : IVec S_ 1 := (fun x v => Host.reduce IntOp.andi x v reducesTo_S8x16x6x256x256_S_d0_1_2_3_4 h_S_) main_v6 main_c_1
  let main_v8 : IVec S_ 1 := andi main_v3 main_v7
  main_v8
-- ==== Kernel.lean ====
abbrev S8x16x6x256x256 : Shape := ⟨5, ![8, 16, 6, 256, 256]⟩
abbrev S768x65536 : Shape := ⟨2, ![768, 65536]⟩
abbrev S768x640 : Shape := ⟨2, ![768, 640]⟩
abbrev S32x65536 : Shape := ⟨2, ![32, 65536]⟩
abbrev S32x640 : Shape := ⟨2, ![32, 640]⟩
abbrev S32x1 : Shape := ⟨2, ![32, 1]⟩
abbrev S32x2048 : Shape := ⟨2, ![32, 2048]⟩
abbrev S32 : Shape := ⟨1, ![32]⟩
abbrev S32x128 : Shape := ⟨2, ![32, 128]⟩
abbrev S768x1 : Shape := ⟨2, ![768, 1]⟩
abbrev S768 : Shape := ⟨1, ![768]⟩
abbrev S_ : Shape := ⟨0, ![]⟩

abbrev nBuf : Space → Nat
  | .hbm => 61
  | .vmem => 6
  | .smem => 0
  | _ => 0

abbrev bufTy : (tb : Table) → Fin (tcTables nBuf tb) → BufTy
  | .hbm, ⟨0, _⟩ => ⟨S8x16x6x256x256, .f32⟩
  | .hbm, ⟨1, _⟩ => ⟨S8x16x6x256x256, .f32⟩
  | .hbm, ⟨2, _⟩ => ⟨S768x65536, .f32⟩
  | .hbm, ⟨3, _⟩ => ⟨S768x65536, .f32⟩
  | .hbm, ⟨4, _⟩ => ⟨S768x640, .f32⟩
  | .hbm, ⟨5, _⟩ => ⟨S768x1, .f32⟩
  | .hbm, ⟨6, _⟩ => ⟨S768, .f32⟩
  | .hbm, ⟨7, _⟩ => ⟨S768x1, .f32⟩
  | .hbm, ⟨8, _⟩ => ⟨S768, .f32⟩
  | .hbm, ⟨9, _⟩ => ⟨S768x1, .f32⟩
  | .hbm, ⟨10, _⟩ => ⟨S768, .f32⟩
  | .hbm, ⟨11, _⟩ => ⟨S768x1, .f32⟩
  | .hbm, ⟨12, _⟩ => ⟨S768, .f32⟩
  | .hbm, ⟨13, _⟩ => ⟨S768x1, .f32⟩
  | .hbm, ⟨14, _⟩ => ⟨S768, .f32⟩
  | .hbm, ⟨15, _⟩ => ⟨S768, .f32⟩
  | .hbm, ⟨16, _⟩ => ⟨S_, .f32⟩
  | .hbm, ⟨17, _⟩ => ⟨S768, .f32⟩
  | .hbm, ⟨18, _⟩ => ⟨S768, .f32⟩
  | .hbm, ⟨19, _⟩ => ⟨S768, .f32⟩
  | .hbm, ⟨20, _⟩ => ⟨S_, .f32⟩
  | .hbm, ⟨21, _⟩ => ⟨S768, .f32⟩
  | .hbm, ⟨22, _⟩ => ⟨S768, .f32⟩
  | .hbm, ⟨23, _⟩ => ⟨S768, .f32⟩
  | .hbm, ⟨24, _⟩ => ⟨S_, .f32⟩
  | .hbm, ⟨25, _⟩ => ⟨S768, .f32⟩
  | .hbm, ⟨26, _⟩ => ⟨S768, .f32⟩
  | .hbm, ⟨27, _⟩ => ⟨S768, .f32⟩
  | .hbm, ⟨28, _⟩ => ⟨S_, .f32⟩
  | .hbm, ⟨29, _⟩ => ⟨S768, .f32⟩
  | .hbm, ⟨30, _⟩ => ⟨S768, .f32⟩
  | .hbm, ⟨31, _⟩ => ⟨S768, .f32⟩
  | .hbm, ⟨32, _⟩ => ⟨S_, .f32⟩
  | .hbm, ⟨33, _⟩ => ⟨S768, .f32⟩
  | .hbm, ⟨34, _⟩ => ⟨S768, .f32⟩
  | .hbm, ⟨35, _⟩ => ⟨S768, .f32⟩
  | .hbm, ⟨36, _⟩ => ⟨S768, .f32⟩
  | .hbm, ⟨37, _⟩ => ⟨S768, .f32⟩
  | .hbm, ⟨38, _⟩ => ⟨S_, .f32⟩
  | .hbm, ⟨39, _⟩ => ⟨S768, .f32⟩
  | .hbm, ⟨40, _⟩ => ⟨S768, .f32⟩
  | .hbm, ⟨41, _⟩ => ⟨S768, .f32⟩
  | .hbm, ⟨42, _⟩ => ⟨S_, .f32⟩
  | .hbm, ⟨43, _⟩ => ⟨S768, .f32⟩
  | .hbm, ⟨44, _⟩ => ⟨S768, .f32⟩
  | .hbm, ⟨45, _⟩ => ⟨S768, .f32⟩
  | .hbm, ⟨46, _⟩ => ⟨S768, .f32⟩
  | .hbm, ⟨47, _⟩ => ⟨S_, .f32⟩
  | .hbm, ⟨48, _⟩ => ⟨S768, .f32⟩
  | .hbm, ⟨49, _⟩ => ⟨S768, .f32⟩
  | .hbm, ⟨50, _⟩ => ⟨S768, .f32⟩
  | .hbm, ⟨51, _⟩ => ⟨S768, .f32⟩
  | .hbm, ⟨52, _⟩ => ⟨S768, .f32⟩
  | .hbm, ⟨53, _⟩ => ⟨S768, .f32⟩
  | .hbm, ⟨54, _⟩ => ⟨S_, .f32⟩
  | .hbm, ⟨55, _⟩ => ⟨S768, .f32⟩
  | .hbm, ⟨56, _⟩ => ⟨S768, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .local _ .vmem, ⟨0, _⟩ => ⟨S32x65536, .f32⟩
  | .local _ .vmem, ⟨1, _⟩ => ⟨S32x65536, .f32⟩
  | .local _ .vmem, ⟨2, _⟩ => ⟨S32x65536, .f32⟩
  | .local _ .vmem, ⟨3, _⟩ => ⟨S32x65536, .f32⟩
  | .local _ .vmem, ⟨4, _⟩ => ⟨S32x640, .f32⟩
  | .local _ .vmem, ⟨5, _⟩ => ⟨S32x640, .f32⟩
  | _, _ => ⟨S8x16x6x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_1 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_2 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_3 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_4 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_5 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_6 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_7 : Ref sig .tc := ⟨.hbm, 54, rfl⟩
abbrev main_v44 : Ref sig .tc := ⟨.hbm, 55, rfl⟩
abbrev main_v45 : Ref sig .tc := ⟨.hbm, 56, rfl⟩
abbrev main_cst_8 : Ref sig .tc := ⟨.hbm, 57, rfl⟩
abbrev main_v46 : Ref sig .tc := ⟨.hbm, 58, rfl⟩
abbrev main_cst_9 : Ref sig .tc := ⟨.hbm, 59, rfl⟩
abbrev main_v47 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![24], ![false]⟩

def k0_off1 (c0_i32 : BitVec 32) : Fin 2 → Nat :=
  let c0 : Index := 0#32
  let c2048_i32 : BitVec 32 := 2048#32
  let v1 : BitVec 32 := Scalar.muli c0_i32 c2048_i32
  let v2 : Index := Scalar.indexCast v1
  ![0, v2.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8x16x6x256x256_S768x65536 : S8x16x6x256x256.ShapeCasts S768x65536
  h_S32x2048 : 0 < S32x2048.numel
  shapeCasts_S32x2048_S32x2048 : S32x2048.ShapeCasts S32x2048
  reduces_S32x2048_S32 : S32x2048.Reduces [1] S32
  shapeCasts_S32_S32x1 : S32.ShapeCasts S32x1
  shapeCasts_S32x1_S32x1 : S32x1.ShapeCasts S32x1
  broadcasts_S32x1_S32x128 : S32x1.Broadcasts S32x128
  inb_S32x640_S32x128_0_0 : ∀ a, (![0, 0] : Fin 2 → Nat) a + S32x128.size a ≤ S32x640.size a
  h_S32x128 : 0 < S32x128.numel
  inb_S32x640_S32x128_0_128 : ∀ a, (![0, 128] : Fin 2 → Nat) a + S32x128.size a ≤ S32x640.size a
  inb_S32x640_S32x128_0_256 : ∀ a, (![0, 256] : Fin 2 → Nat) a + S32x128.size a ≤ S32x640.size a
  inb_S32x640_S32x128_0_384 : ∀ a, (![0, 384] : Fin 2 → Nat) a + S32x128.size a ≤ S32x640.size a
  inb_S32x640_S32x128_0_512 : ∀ a, (![0, 512] : Fin 2 → Nat) a + S32x128.size a ≤ S32x640.size a
  slices_S768x640_S768x1_0_0 : S768x640.Slices ![0, 0] S768x1
  shapeCasts_S768x1_S768 : S768x1.ShapeCasts S768
  slices_S768x640_S768x1_0_128 : S768x640.Slices ![0, 128] S768x1
  slices_S768x640_S768x1_0_256 : S768x640.Slices ![0, 256] S768x1
  slices_S768x640_S768x1_0_384 : S768x640.Slices ![0, 384] S768x1
  slices_S768x640_S768x1_0_512 : S768x640.Slices ![0, 512] S768x1
  bcast_S_S768 : S_.BroadcastsInDim S768 (![] : Fin 0 → Fin S768.rank)
  reducesTo_S768_S_d0 : S768.ReducesTo [0] S_
  h_S_ : 0 < S_.numel
  hrank0 : 0 < grid0.rank
  k0_off1_inb : ∀ (r : Fin 32), ∀ a, (k0_off1 (BitVec.ofNat 32 r.val)) a + S32x2048.size a ≤ S32x65536.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x65536.size a ≤ S768x65536.size a
  hwx0_0 : ∀ i : grid0.Coords, EltTy.bits .f32 = 32 ∨ (Rect.block (s := S768x65536) S32x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x65536.size a ≤ S768x65536.size a
  hwx0_1 : ∀ i : grid0.Coords, EltTy.bits .f32 = 32 ∨ (Rect.block (s := S768x65536) S32x65536.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x640.size a ≤ S768x640.size a
  hwx0_2 : ∀ i : grid0.Coords, EltTy.bits .f32 = 32 ∨ (Rect.block (s := S768x640) S32x640.size (cc0_transform_2 i) (hinb0_2 i)).WholeWords (EltTy.packing .f32)

variable [Facts₀]

abbrev win0_0 : Pipeline.Window sig grid0 :=
  Pipeline.Window.ofSpec (Memref.whole main_v0) S32x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x65536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S32x640.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x16x6x256x256 : Shape := ⟨5, ![8, 16, 6, 256, 256]⟩
abbrev S768x65536 : Shape := ⟨2, ![768, 65536]⟩
abbrev S_ : Shape := ⟨0, ![]⟩
abbrev S768 : Shape := ⟨1, ![768]⟩
abbrev S768x1 : Shape := ⟨2, ![768, 1]⟩

abbrev nBuf : Space → Nat
  | .hbm => 90
  | .vmem => 0
  | .smem => 0
  | _ => 0

abbrev bufTy : (tb : Table) → Fin (tcTables nBuf tb) → BufTy
  | .hbm, ⟨0, _⟩ => ⟨S8x16x6x256x256, .f32⟩
  | .hbm, ⟨1, _⟩ => ⟨S8x16x6x256x256, .f32⟩
  | .hbm, ⟨2, _⟩ => ⟨S768x65536, .f32⟩
  | .hbm, ⟨3, _⟩ => ⟨S768x65536, .f32⟩
  | .hbm, ⟨4, _⟩ => ⟨S_, .i32⟩
  | .hbm, ⟨5, _⟩ => ⟨S_, .f32⟩
  | .hbm, ⟨6, _⟩ => ⟨S768, .f32⟩
  | .hbm, ⟨7, _⟩ => ⟨S768x1, .f32⟩
  | .hbm, ⟨8, _⟩ => ⟨S_, .f32⟩
  | .hbm, ⟨9, _⟩ => ⟨S768x1, .f32⟩
  | .hbm, ⟨10, _⟩ => ⟨S768x1, .f32⟩
  | .hbm, ⟨11, _⟩ => ⟨S768x65536, .f32⟩
  | .hbm, ⟨12, _⟩ => ⟨S768x65536, .f32⟩
  | .hbm, ⟨13, _⟩ => ⟨S768x65536, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S768, .f32⟩
  | .hbm, ⟨19, _⟩ => ⟨S768, .f32⟩
  | .hbm, ⟨20, _⟩ => ⟨S768, .f32⟩
  | .hbm, ⟨21, _⟩ => ⟨S_, .f32⟩
  | .hbm, ⟨22, _⟩ => ⟨S_, .i1⟩
  | .hbm, ⟨23, _⟩ => ⟨S_, .f32⟩
  | .hbm, ⟨24, _⟩ => ⟨S_, .f32⟩
  | .hbm, ⟨25, _⟩ => ⟨S768, .f32⟩
  | .hbm, ⟨26, _⟩ => ⟨S768, .f32⟩
  | .hbm, ⟨27, _⟩ => ⟨S_, .i32⟩
  | .hbm, ⟨28, _⟩ => ⟨S_, .f32⟩
  | .hbm, ⟨29, _⟩ => ⟨S768, .f32⟩
  | .hbm, ⟨30, _⟩ => ⟨S768x1, .f32⟩
  | .hbm, ⟨31, _⟩ => ⟨S_, .f32⟩
  | .hbm, ⟨32, _⟩ => ⟨S768x1, .f32⟩
  | .hbm, ⟨33, _⟩ => ⟨S768x1, .f32⟩
  | .hbm, ⟨34, _⟩ => ⟨S768x65536, .f32⟩
  | .hbm, ⟨35, _⟩ => ⟨S768x65536, .f32⟩
  | .hbm, ⟨36, _⟩ => ⟨S768x65536, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S768, .f32⟩
  | .hbm, ⟨42, _⟩ => ⟨S768, .f32⟩
  | .hbm, ⟨43, _⟩ => ⟨S768, .f32⟩
  | .hbm, ⟨44, _⟩ => ⟨S_, .f32⟩
  | .hbm, ⟨45, _⟩ => ⟨S_, .i1⟩
  | .hbm, ⟨46, _⟩ => ⟨S_, .f32⟩
  | .hbm, ⟨47, _⟩ => ⟨S_, .f32⟩
  | .hbm, ⟨48, _⟩ => ⟨S768, .f32⟩
  | .hbm, ⟨49, _⟩ => ⟨S768, .f32⟩
  | .hbm, ⟨50, _⟩ => ⟨S768x65536, .f32⟩
  | .hbm, ⟨51, _⟩ => ⟨S_, .i32⟩
  | .hbm, ⟨52, _⟩ => ⟨S_, .f32⟩
  | .hbm, ⟨53, _⟩ => ⟨S768, .f32⟩
  | .hbm, ⟨54, _⟩ => ⟨S768x1, .f32⟩
  | .hbm, ⟨55, _⟩ => ⟨S_, .f32⟩
  | .hbm, ⟨56, _⟩ => ⟨S768x1, .f32⟩
  | .hbm, ⟨57, _⟩ => ⟨S768x1, .f32⟩
  | .hbm, ⟨58, _⟩ => ⟨S768x65536, .f32⟩
  | .hbm, ⟨59, _⟩ => ⟨S768x65536, .f32⟩
  | .hbm, ⟨60, _⟩ => ⟨S768x65536, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S768, .f32⟩
  | .hbm, ⟨66, _⟩ => ⟨S768, .f32⟩
  | .hbm, ⟨67, _⟩ => ⟨S768, .f32⟩
  | .hbm, ⟨68, _⟩ => ⟨S_, .f32⟩
  | .hbm, ⟨69, _⟩ => ⟨S_, .i1⟩
  | .hbm, ⟨70, _⟩ => ⟨S_, .f32⟩
  | .hbm, ⟨71, _⟩ => ⟨S_, .f32⟩
  | .hbm, ⟨72, _⟩ => ⟨S768, .f32⟩
  | .hbm, ⟨73, _⟩ => ⟨S768, .f32⟩
  | .hbm, ⟨74, _⟩ => ⟨S768, .f32⟩
  | .hbm, ⟨75, _⟩ => ⟨S768, .f32⟩
  | .hbm, ⟨76, _⟩ => ⟨S_, .f32⟩
  | .hbm, ⟨77, _⟩ => ⟨S768, .f32⟩
  | .hbm, ⟨78, _⟩ => ⟨S768, .f32⟩
  | .hbm, ⟨79, _⟩ => ⟨S768, .f32⟩
  | .hbm, ⟨80, _⟩ => ⟨S768, .f32⟩
  | .hbm, ⟨81, _⟩ => ⟨S768, .f32⟩
  | .hbm, ⟨82, _⟩ => ⟨S768, .f32⟩
  | .hbm, ⟨83, _⟩ => ⟨S_, .f32⟩
  | .hbm, ⟨84, _⟩ => ⟨S768, .f32⟩
  | .hbm, ⟨85, _⟩ => ⟨S768, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | _, _ => ⟨S8x16x6x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_cst_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_cst_1 : Ref sig .tc := ⟨.hbm, 15, rfl⟩
abbrev main_call0_v8 : Ref sig .tc := ⟨.hbm, 16, rfl⟩
abbrev main_call0_cst_2 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_cst_3 : Ref sig .tc := ⟨.hbm, 21, rfl⟩
abbrev main_call0_v12 : Ref sig .tc := ⟨.hbm, 22, rfl⟩
abbrev main_call0_cst_4 : Ref sig .tc := ⟨.hbm, 23, rfl⟩
abbrev main_call0_call0_v0 : Ref sig .tc := ⟨.hbm, 24, rfl⟩
abbrev main_call0_call0_v1 : Ref sig .tc := ⟨.hbm, 25, rfl⟩
abbrev main_v2 : Ref sig .tc := ⟨.hbm, 26, rfl⟩
abbrev main_c_0 : Ref sig .tc := ⟨.hbm, 27, rfl⟩
abbrev main_call1_cst : Ref sig .tc := ⟨.hbm, 28, rfl⟩
abbrev main_call1_v0 : Ref sig .tc := ⟨.hbm, 29, rfl⟩
abbrev main_call1_v1 : Ref sig .tc := ⟨.hbm, 30, rfl⟩
abbrev main_call1_cst_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_cst_1 : Ref sig .tc := ⟨.hbm, 38, rfl⟩
abbrev main_call1_v8 : Ref sig .tc := ⟨.hbm, 39, rfl⟩
abbrev main_call1_cst_2 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_cst_3 : Ref sig .tc := ⟨.hbm, 44, rfl⟩
abbrev main_call1_v12 : Ref sig .tc := ⟨.hbm, 45, rfl⟩
abbrev main_call1_cst_4 : Ref sig .tc := ⟨.hbm, 46, rfl⟩
abbrev main_call1_call0_v0 : Ref sig .tc := ⟨.hbm, 47, rfl⟩
abbrev main_call1_call0_v1 : Ref sig .tc := ⟨.hbm, 48, rfl⟩
abbrev main_v3 : Ref sig .tc := ⟨.hbm, 49, rfl⟩
abbrev main_v4 : Ref sig .tc := ⟨.hbm, 50, rfl⟩
abbrev main_c_1 : Ref sig .tc := ⟨.hbm, 51, rfl⟩
abbrev main_call2_cst : Ref sig .tc := ⟨.hbm, 52, rfl⟩
abbrev main_call2_v0 : Ref sig .tc := ⟨.hbm, 53, rfl⟩
abbrev main_call2_v1 : Ref sig .tc := ⟨.hbm, 54, rfl⟩
abbrev main_call2_cst_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_v6 : Ref sig .tc := ⟨.hbm, 60, rfl⟩
abbrev main_call2_v7 : Ref sig .tc := ⟨.hbm, 61, rfl⟩
abbrev main_call2_cst_1 : Ref sig .tc := ⟨.hbm, 62, rfl⟩
abbrev main_call2_v8 : Ref sig .tc := ⟨.hbm, 63, rfl⟩
abbrev main_call2_cst_2 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_cst_3 : Ref sig .tc := ⟨.hbm, 68, rfl⟩
abbrev main_call2_v12 : Ref sig .tc := ⟨.hbm, 69, rfl⟩
abbrev main_call2_cst_4 : Ref sig .tc := ⟨.hbm, 70, rfl⟩
abbrev main_call2_call0_v0 : Ref sig .tc := ⟨.hbm, 71, rfl⟩
abbrev main_call2_call0_v1 : Ref sig .tc := ⟨.hbm, 72, rfl⟩
abbrev main_v5 : Ref sig .tc := ⟨.hbm, 73, rfl⟩
abbrev main_v6 : Ref sig .tc := ⟨.hbm, 74, rfl⟩
abbrev main_v7 : Ref sig .tc := ⟨.hbm, 75, rfl⟩
abbrev main_cst : Ref sig .tc := ⟨.hbm, 76, rfl⟩
abbrev main_v8 : Ref sig .tc := ⟨.hbm, 77, rfl⟩
abbrev main_v9 : Ref sig .tc := ⟨.hbm, 78, rfl⟩
abbrev main_v10 : Ref sig .tc := ⟨.hbm, 79, rfl⟩
abbrev main_v11 : Ref sig .tc := ⟨.hbm, 80, rfl⟩
abbrev main_v12 : Ref sig .tc := ⟨.hbm, 81, rfl⟩
abbrev main_v13 : Ref sig .tc := ⟨.hbm, 82, rfl⟩
abbrev main_cst_2 : Ref sig .tc := ⟨.hbm, 83, rfl⟩
abbrev main_v14 : Ref sig .tc := ⟨.hbm, 84, rfl⟩
abbrev main_v15 : Ref sig .tc := ⟨.hbm, 85, rfl⟩
abbrev main_cst_3 : Ref sig .tc := ⟨.hbm, 86, rfl⟩
abbrev main_v16 : Ref sig .tc := ⟨.hbm, 87, rfl⟩
abbrev main_cst_4 : Ref sig .tc := ⟨.hbm, 88, rfl⟩
abbrev main_v17 : Ref sig .tc := ⟨.hbm, 89, rfl⟩

abbrev nD : Nat := 1
abbrev τ : Topo := Topo.v7x

variable {F : FTy → Type} [FloatOps F]

class Facts₀ : Prop where
  shapeCasts_S8x16x6x256x256_S768x65536 : S8x16x6x256x256.ShapeCasts S768x65536
  reducesTo_S768x65536_S768_d1 : S768x65536.ReducesTo [1] S768
  h_S_ : 0 < S_.numel
  bcast_S768_S768x1_0 : S768.BroadcastsInDim S768x1 (![0] : Fin 1 → Fin S768x1.rank)
  bcast_S_S768x1 : S_.BroadcastsInDim S768x1 (![] : Fin 0 → Fin S768x1.rank)
  bcast_S768x1_S768x65536_0_1 : S768x1.BroadcastsInDim S768x65536 (![0, 1] : Fin 2 → Fin S768x65536.rank)
  bcast_S_S768 : S_.BroadcastsInDim S768 (![] : Fin 0 → Fin S768.rank)
  reducesTo_S768_S_d0 : S768.ReducesTo [0] S_

variable [Facts₀]

class Facts : Prop extends Facts₀ where

variable [Facts]
-- ==== Proof.Spec.lean ====
/-
  The mathematics both programs compute, stated once over extended reals, with no program in sight.

  The inputs are two arrays of 768 rows and 65536 samples per row (the five-axis inputs flattened row-major).
  For a row r write s(X) = Σ_k X(r,k) and d(X,Y) = Σ_k X(r,k)·Y(r,k).

  * The kernel accumulates the five moments s(X), d(X,X), s(Y), d(Y,Y), d(X,Y) of each row and forms the unbiased
    variances from them: var = (d − s²/n)/(n−1), with n = 65536 and n − 1 = 65535, and for the sum X + Y the moments
    s(X)+s(Y) and d(X,X) + 2·d(X,Y) + d(Y,Y).
  * The reference centres each row at its mean s/n, sums the squares of the centred samples, and divides by n − 1.

  Both then apply one and the same chain to the three variance vectors: r = 1 − ½·(v_{x+y} − v_x − v_y)/√|v_x·v_y|,
  summed over the 768 rows and divided by 768. That chain is kept as ONE function (`finalChain`) and never opened:
  the two sides are equal as soon as the three variance vectors are.
-/
import Idealize.ShloMosaic.PureOps.Ideal
import Idealize.ShloMosaic.PureOps.Vector
import Idealize.ShloMosaic.Lib.ValueIdx

noncomputable section

namespace Cert.Spec

open Idealize.ShloMosaic

/-- 768 rows of 65536 samples. -/
abbrev SX : Shape := ⟨2, ![768, 65536]⟩
/-- One value per row. -/
abbrev SR : Shape := ⟨1, ![768]⟩
/-- A scalar. -/
abbrev S0 : Shape := ⟨0, ![]⟩

/-- The sample count n = 65536, as the float word both programs spell. -/
def cN : EReal := Ideal.ofBits .f32 0x47800000#32
/-- n − 1 = 65535, as the float word the kernel spells. -/
def cN1 : EReal := Ideal.ofBits .f32 0x477FFF00#32
/-- The factor 2 of the cross term. -/
def c2 : EReal := Ideal.ofBits .f32 0x40000000#32

/-- A row's sum. -/
def rowSum (X : SX.Idx → EReal) (r : Fin 768) : EReal := ∑ k : Fin 65536, X (ValueIdx.ix2 r k)
/-- A row's sum of products. -/
def rowDot (X Y : SX.Idx → EReal) (r : Fin 768) : EReal := ∑ k : Fin 65536, X (ValueIdx.ix2 r k) * Y (ValueIdx.ix2 r k)

/-- The unbiased variance from a row's sum `s` and sum of squares `ss`: (ss − s²/n)/(n−1). -/
def varMoments (s ss : EReal) : EReal := Ideal.div (ss - Ideal.div (s * s) cN) cN1
/-- The unbiased variance of a row of X + Y from the five moments of the two rows. -/
def varMomentsSum (sx sxx sy syy sxy : EReal) : EReal :=
  Ideal.div (((sxx + c2 * sxy) + syy) - Ideal.div ((sx + sy) * (sx + sy)) cN) cN1
/-- The unbiased variance of a row the two-pass way: the squares of the samples centred at the mean s/n, summed,
    over n − 1. -/
def varCentered (X : SX.Idx → EReal) (r : Fin 768) : EReal :=
  Ideal.div (∑ k : Fin 65536, (X (ValueIdx.ix2 r k) - Ideal.div (rowSum X r) cN) * (X (ValueIdx.ix2 r k) - Ideal.div (rowSum X r) cN))
    (cN - 1)

/-- What both programs do with the three variance vectors: 1 − ½·(v_{x+y} − v_x − v_y)/√|v_x·v_y| per row, the mean over
    the rows. Spelled with the host operations both programs print; never unfolded. -/
def finalChain (hb : S0.BroadcastsInDim SR (![] : Fin 0 → Fin SR.rank)) (hr : SR.ReducesTo [0] S0) (h0 : 0 < S0.numel)
    (vx vy vxy : FVec Ideal SR .f32) : FVec Ideal S0 .f32 :=
  Host.divf
    (Host.reduceAdd
      (subf (broadcastInDim SR ![] hb (constant (F := Ideal) S0 .f32 0x3F800000#32))
        (Host.divf
          (mulf (broadcastInDim SR ![] hb (constant (F := Ideal) S0 .f32 0x3F000000#32)) (subf (subf vxy vx) vy))
          (Host.sqrt (Host.absf (mulf vx vy)))))
      (constant (F := Ideal) S0 .f32 0x00000000#32) hr h0)
    (constant (F := Ideal) S0 .f32 0x44400000#32)

end Cert.Spec

end
-- ==== Proof.KernelResult.lean ====
/-
  The idealized kernel program's result as a function of its two inputs: the closing chain of the three unbiased
  variances formed from the rows' moments (the sums Σx, Σx², Σy, Σy², Σxy over each of the 768 rows of 65536 samples).
-/
import proofs.«102069_j82686710383027_2_alg».proof.Proof.Gen.KernelIdeal
import proofs.«102069_j82686710383027_2_alg».proof.Proof.Spec

noncomputable section
namespace Cert.KernelIdeal.Value
open Idealize.ShloMosaic Cert.KernelIdeal

/-- An input flattened to its 768 rows. -/
abbrev rows (a : FVec Ideal S8x16x6x256x256 .f32) : Cert.Spec.SX.Idx → EReal :=
  shapeCast Cert.Spec.SX a Gen.shapeCasts_S8x16x6x256x256_S768x65536

/-- The result as a function of the two inputs. -/
def result (a0 a1 : FVec Ideal S8x16x6x256x256 .f32) : FVec Ideal Cert.Spec.S0 .f32 :=
  Cert.Spec.finalChain Gen.bcast_S_S768 Gen.reducesTo_S768_S_d0 Gen.h_S_
    (fun i => Cert.Spec.varMoments (Cert.Spec.rowSum (rows a0) (i 0)) (Cert.Spec.rowDot (rows a0) (rows a0) (i 0)))
    (fun i => Cert.Spec.varMoments (Cert.Spec.rowSum (rows a1) (i 0)) (Cert.Spec.rowDot (rows a1) (rows a1) (i 0)))
    (fun i => Cert.Spec.varMomentsSum (Cert.Spec.rowSum (rows a0) (i 0)) (Cert.Spec.rowDot (rows a0) (rows a0) (i 0))
      (Cert.Spec.rowSum (rows a1) (i 0)) (Cert.Spec.rowDot (rows a1) (rows a1) (i 0)) (Cert.Spec.rowDot (rows a0) (rows a1) (i 0)))

end Cert.KernelIdeal.Value
end
-- ==== Proof.KernelBlock.lean ====
/-
  The kernel body's result, as a function of the two input blocks.

  At a grid point the body sees a block of 32 rows by 65536 samples of each input. It walks the samples in 32 chunks of
  2048 lanes; for each chunk it adds to five running columns the chunk's lane sums of x, x·x, y, y·y and x·y, starting
  from zero. At the end each running column (one value per row) is spread over 128 lanes and stored side by side, so the
  32 × 640 output block holds, in column group g = 0..4 of row p, the g-th moment of row p over all 65536 samples:
  the 32 chunk sums, added in order, are the sum over the whole row because addition of extended reals is associative
  and commutative (no finiteness is needed for that).
-/
import proofs.«102069_j82686710383027_2_alg».proof.Proof.Gen.KernelIdeal.Frame
import Idealize.ShloMosaic.Lib.Pipeline.Value
import Idealize.ShloMosaic.Lib.ValueIdx
import Idealize.ShloMosaic.Lib.ValueLayout
import Idealize.ShloMosaic.Lib.WholeRead
import Idealize.ShloMosaic.PureOps.Ideal.Laws

set_option maxRecDepth 16384

noncomputable section
namespace Cert.KernelIdeal.Block
open Idealize.ShloMosaic Idealize.ShloMosaic.ValueIdx Idealize.ShloMosaic.Tactic Cert.KernelIdeal Cert.KernelIdeal.Gen

/-- The five moments of a block's row, one per group of 128 columns: Σx, Σx², Σy, Σy², Σxy over the row's 65536 samples. -/
def Gb (x0 x1 : S32x65536.Idx → EReal) (y : S32x640.Idx) : EReal :=
  match (y 1).val / 128 with
  | 0 => ∑ k : Fin 65536, x0 (ix2 (y 0) k)
  | 1 => ∑ k : Fin 65536, x0 (ix2 (y 0) k) * x0 (ix2 (y 0) k)
  | 2 => ∑ k : Fin 65536, x1 (ix2 (y 0) k)
  | 3 => ∑ k : Fin 65536, x1 (ix2 (y 0) k) * x1 (ix2 (y 0) k)
  | _ => ∑ k : Fin 65536, x0 (ix2 (y 0) k) * x1 (ix2 (y 0) k)

/-! ## The body's operations read at a row -/

/-- The zero the running columns start from. -/
theorem zero_apply (j : S32x1.Idx) : k0_pay1 (F := Ideal) j = 0 := by
  unfold k0_pay1
  simp only [broadcast_apply]
  exact Ideal.ofBits_zero_f32

/-- A lane sum at row p is the sum over the 2048 lanes of that row. -/
theorem lanesum_apply (w : FVec Ideal S32x2048 .f32) (hr : S32x2048.Reduces [1] S32) (hφ : FKind.Formats .f32) (hacc : (0x00000000#32 : BitVec 32) = FKind.add.neutral .f32 hφ) (p : Fin 32) :
    multiReduction (F := Ideal) .add [1] S32 w 0x00000000#32 hr hφ hacc (ix1 p) = ∑ l : Fin 2048, w (ix2 p l) := by
  refine (Ideal.multiReduction_add_single w 0x00000000#32 hr hφ hacc (ix1 p)).trans ?_
  refine Finset.sum_congr rfl fun l _ => congrArg w (funext fun a => ?_)
  match a with
  | ⟨0, _⟩ => rfl
  | ⟨1, _⟩ => rfl

/-- A vector of 32 row values recast as a 32 × 1 column holds row p's value at (p, 0). -/
theorem col_apply (v : FVec Ideal S32 .f32) (h : S32.ShapeCasts S32x1) (p : Fin 32) (z : Fin 1) :
    shapeCast S32x1 v h (ix2 p z) = v (ix1 p) := by
  refine shapeCast_apply v _ (ix2 p z) (ix1 p) ?_
  rw [Shape.rowMajor_val_one, Shape.rowMajor_val_two]
  have hz : z.val = 0 := by omega
  show p.val = p.val * 1 + z.val
  omega

/-- A 32 × 1 column spread over 128 lanes holds row p's value at every lane of row p. -/
theorem bcol_apply (v : FVec Ideal S32x1 .f32) (h : S32x1.Broadcasts S32x128) (p : Fin 32) (q : Fin 128) :
    broadcastTo S32x128 v h (ix2 p q) = v (ix2 p 0) := by
  refine broadcastTo_apply v _ (ix2 p q) (ix2 p 0) ?_
  intro a
  match a with
  | ⟨0, _⟩ => rfl
  | ⟨1, _⟩ => rfl

/-- Row p of a block as a sequence of samples (zero past the row's end, which is never read). -/
def seq (x : S32x65536.Idx → EReal) (p : Fin 32) (k : ℕ) : EReal := if h : k < 65536 then x (ix2 p ⟨k, h⟩) else 0

/-- A chunk loaded from offset `off` holds, at row p and lane l, the row's sample off + l. -/
theorem chunk_apply (m : Memref sig .tc .vmem S32x65536 .f32) (hm : m.IsWhole) (x : Vec Ideal S32x65536 .f32) (off : ℕ)
    (inb : ∀ a, (![0, off] : Fin 2 → ℕ) a + (![32, 2048] : Fin 2 → ℕ) a ≤ S32x65536.size a) (p : Fin 32) (l : Fin 2048) :
    View.readAt (Elt Ideal) m.view (Rect.unit (s := S32x65536) ![0, off] ![32, 2048] inb).toLoadRect (hm.unread x) (ix2 p l)
      = seq x p (off + l.val) := by
  refine (Memref.IsWhole.readAt_unread hm x (Rect.unit (s := S32x65536) ![0, off] ![32, 2048] inb).toLoadRect (ix2 p l)).trans ?_
  unfold seq
  have hb : off + l.val < 65536 := by
    have h1 := inb 1
    have h2 := l.isLt
    simp only [S32x65536] at h1
    show off + l.val < 65536
    simp at h1
    omega
  rw [dif_pos hb]
  refine congrArg x (funext fun a => ?_)
  match a with
  | ⟨0, _⟩ => exact Fin.ext (by show 0 + 1 * p.val = p.val; omega)
  | ⟨1, _⟩ => exact Fin.ext (by show off + 1 * l.val = off + l.val; omega)

/-- The lane sum of a loaded chunk, at row p. -/
theorem lane_sum (m : Memref sig .tc .vmem S32x65536 .f32) (hm : m.IsWhole) (x : Vec Ideal S32x65536 .f32) (off : ℕ)
    (inb : ∀ a, (![0, off] : Fin 2 → ℕ) a + (![32, 2048] : Fin 2 → ℕ) a ≤ S32x65536.size a)
    (hr : S32x2048.Reduces [1] S32) (hφ : FKind.Formats .f32) (hacc : (0x00000000#32 : BitVec 32) = 0x00000000#32) (p : Fin 32) :
    multiReduction (F := Ideal) (s := S32x2048) .add [1] S32
        (View.readAt (Elt Ideal) m.view (Rect.unit (s := S32x65536) ![0, off] ![32, 2048] inb).toLoadRect (hm.unread x))
        0x00000000#32 hr hφ hacc (ix1 p)
      = ∑ l : Fin 2048, seq x p (off + l.val) :=
  (lanesum_apply _ hr hφ hacc p).trans (Finset.sum_congr rfl fun l _ => chunk_apply m hm x off inb p l)

/-- The lane sum of the product of two loaded chunks (of the same or of different inputs), at row p. -/
theorem lane_dot (m : Memref sig .tc .vmem S32x65536 .f32) (hm : m.IsWhole) (x : Vec Ideal S32x65536 .f32)
    (m' : Memref sig .tc .vmem S32x65536 .f32) (hm' : m'.IsWhole) (x' : Vec Ideal S32x65536 .f32) (off : ℕ)
    (inb inb' : ∀ a, (![0, off] : Fin 2 → ℕ) a + (![32, 2048] : Fin 2 → ℕ) a ≤ S32x65536.size a)
    (hr : S32x2048.Reduces [1] S32) (hφ : FKind.Formats .f32) (hacc : (0x00000000#32 : BitVec 32) = 0x00000000#32) (p : Fin 32) :
    multiReduction (F := Ideal) (s := S32x2048) .add [1] S32
        (mulf (View.readAt (Elt Ideal) m.view (Rect.unit (s := S32x65536) ![0, off] ![32, 2048] inb).toLoadRect (hm.unread x))
              (View.readAt (Elt Ideal) m'.view (Rect.unit (s := S32x65536) ![0, off] ![32, 2048] inb').toLoadRect (hm'.unread x')))
        0x00000000#32 hr hφ hacc (ix1 p)
      = ∑ l : Fin 2048, seq x p (off + l.val) * seq x' p (off + l.val) :=
  (lanesum_apply _ hr hφ hacc p).trans (Finset.sum_congr rfl fun l _ => by
    rw [mulf_apply]
    exact congrArg₂ (· * ·) (chunk_apply m hm x off inb p l) (chunk_apply m' hm' x' off inb' p l))

/-! ## Thirty-two chunk sums, added in order, are the sum over the row -/

/-- The running column after n chunks. -/
def acc (g : ℕ → EReal) : ℕ → EReal
  | 0 => 0
  | n + 1 => acc g n + ∑ l : Fin 2048, g (2048 * n + l.val)

/-- After n chunks the running column holds the sum of the first 2048·n samples. -/
theorem acc_eq (g : ℕ → EReal) (n : ℕ) : acc g n = ∑ k ∈ Finset.range (2048 * n), g k := by
  induction n with
  | zero => simp [acc]
  | succ n ih =>
    rw [acc, ih, Nat.mul_succ, Finset.sum_range_add, Fin.sum_univ_eq_sum_range (fun l => g (2048 * n + l))]

/-- A sum over a row's samples, as a sum over the sample numbers. -/
theorem row_range (x : S32x65536.Idx → EReal) (p : Fin 32) :
    ∑ k : Fin 65536, x (ix2 p k) = ∑ k ∈ Finset.range 65536, seq x p k := by
  rw [← Fin.sum_univ_eq_sum_range (fun k => seq x p k) 65536]
  refine Finset.sum_congr rfl fun k _ => ?_
  unfold seq
  rw [dif_pos k.isLt]

theorem row_range₂ (x x' : S32x65536.Idx → EReal) (p : Fin 32) :
    ∑ k : Fin 65536, x (ix2 p k) * x' (ix2 p k) = ∑ k ∈ Finset.range 65536, seq x p k * seq x' p k := by
  rw [← Fin.sum_univ_eq_sum_range (fun k => seq x p k * seq x' p k) 65536]
  refine Finset.sum_congr rfl fun k _ => ?_
  unfold seq
  rw [dif_pos k.isLt, dif_pos k.isLt]

/-! ## The five stored pieces -/

set_option maxHeartbeats 4000000 in
/-- Each of the five stores writes, into its group of 128 columns, the group's moment of every row: the store's payload is
    the running column after the 32nd chunk, spread over the lanes. -/
theorem pieces_value (c : Dev nD) (i : grid0.Coords) (arg1 : Memref sig .tc .vmem S32x65536 .f32) (harg1 : arg1.IsWhole) (arg2 : Memref sig .tc .vmem S32x65536 .f32) (harg2 : arg2.IsWhole) (arg3 : Memref sig .tc .vmem S32x640 .f32) (harg3 : arg3.IsWhole)
    (x0 x1 : Vec Ideal S32x65536 .f32) :
    ∀ pc ∈ (kernelRun0_A (F := Ideal) c i arg1 harg1 arg2 harg2 arg3 harg3 x0 x1).1, ∀ x : pc.1.shape.Idx, pc.2 x = Gb x0 x1 (pc.1.emb x) := by
  unfold kernelRun0_A
  dsimp only
  sl_unfold_words
  intro pc hpc x
  simp only [List.mem_cons, List.mem_nil_iff, or_false] at hpc
  rcases hpc with rfl | rfl | rfl | rfl | rfl
  · obtain ⟨p, q, rfl⟩ : ∃ (p : Fin 32) (q : Fin 128), x = ix2 p q := ⟨x 0, x 1, eq_ix2 x⟩
    simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, zero_apply, col_apply, bcol_apply, shapeCast_self, addf_apply]
    refine Eq.trans (b := acc (fun k => seq x0 p k * seq x1 p k) 32) ?_ ?_
    · simp only [acc, Nat.reduceMul]
      refine congrArg₂ (· + ·) ?_ (lane_dot _ _ _ _ _ _ 63488 _ _ _ _ _ p)
      refine congrArg₂ (· + ·) ?_ (lane_dot _ _ _ _ _ _ 61440 _ _ _ _ _ p)
      refine congrArg₂ (· + ·) ?_ (lane_dot _ _ _ _ _ _ 59392 _ _ _ _ _ p)
      refine congrArg₂ (· + ·) ?_ (lane_dot _ _ _ _ _ _ 57344 _ _ _ _ _ p)
      refine congrArg₂ (· + ·) ?_ (lane_dot _ _ _ _ _ _ 55296 _ _ _ _ _ p)
      refine congrArg₂ (· + ·) ?_ (lane_dot _ _ _ _ _ _ 53248 _ _ _ _ _ p)
      refine congrArg₂ (· + ·) ?_ (lane_dot _ _ _ _ _ _ 51200 _ _ _ _ _ p)
      refine congrArg₂ (· + ·) ?_ (lane_dot _ _ _ _ _ _ 49152 _ _ _ _ _ p)
      refine congrArg₂ (· + ·) ?_ (lane_dot _ _ _ _ _ _ 47104 _ _ _ _ _ p)
      refine congrArg₂ (· + ·) ?_ (lane_dot _ _ _ _ _ _ 45056 _ _ _ _ _ p)
      refine congrArg₂ (· + ·) ?_ (lane_dot _ _ _ _ _ _ 43008 _ _ _ _ _ p)
      refine congrArg₂ (· + ·) ?_ (lane_dot _ _ _ _ _ _ 40960 _ _ _ _ _ p)
      refine congrArg₂ (· + ·) ?_ (lane_dot _ _ _ _ _ _ 38912 _ _ _ _ _ p)
      refine congrArg₂ (· + ·) ?_ (lane_dot _ _ _ _ _ _ 36864 _ _ _ _ _ p)
      refine congrArg₂ (· + ·) ?_ (lane_dot _ _ _ _ _ _ 34816 _ _ _ _ _ p)
      refine congrArg₂ (· + ·) ?_ (lane_dot _ _ _ _ _ _ 32768 _ _ _ _ _ p)
      refine congrArg₂ (· + ·) ?_ (lane_dot _ _ _ _ _ _ 30720 _ _ _ _ _ p)
      refine congrArg₂ (· + ·) ?_ (lane_dot _ _ _ _ _ _ 28672 _ _ _ _ _ p)
      refine congrArg₂ (· + ·) ?_ (lane_dot _ _ _ _ _ _ 26624 _ _ _ _ _ p)
      refine congrArg₂ (· + ·) ?_ (lane_dot _ _ _ _ _ _ 24576 _ _ _ _ _ p)
      refine congrArg₂ (· + ·) ?_ (lane_dot _ _ _ _ _ _ 22528 _ _ _ _ _ p)
      refine congrArg₂ (· + ·) ?_ (lane_dot _ _ _ _ _ _ 20480 _ _ _ _ _ p)
      refine congrArg₂ (· + ·) ?_ (lane_dot _ _ _ _ _ _ 18432 _ _ _ _ _ p)
      refine congrArg₂ (· + ·) ?_ (lane_dot _ _ _ _ _ _ 16384 _ _ _ _ _ p)
      refine congrArg₂ (· + ·) ?_ (lane_dot _ _ _ _ _ _ 14336 _ _ _ _ _ p)
      refine congrArg₂ (· + ·) ?_ (lane_dot _ _ _ _ _ _ 12288 _ _ _ _ _ p)
      refine congrArg₂ (· + ·) ?_ (lane_dot _ _ _ _ _ _ 10240 _ _ _ _ _ p)
      refine congrArg₂ (· + ·) ?_ (lane_dot _ _ _ _ _ _ 8192 _ _ _ _ _ p)
      refine congrArg₂ (· + ·) ?_ (lane_dot _ _ _ _ _ _ 6144 _ _ _ _ _ p)
      refine congrArg₂ (· + ·) ?_ (lane_dot _ _ _ _ _ _ 4096 _ _ _ _ _ p)
      refine congrArg₂ (· + ·) ?_ (lane_dot _ _ _ _ _ _ 2048 _ _ _ _ _ p)
      refine congrArg₂ (· + ·) ?_ (lane_dot _ _ _ _ _ _ 0 _ _ _ _ _ p)
      rfl
    · rw [acc_eq]
      have e1 : ((Rect.unit (s := S32x640) ![0, 512] ![32, 128] inb_S32x640_S32x128_0_512).emb (ix2 p q) 1).val / 128 = 4 := by
        show (512 + 1 * q.val) / 128 = 4
        omega
      have e0 : (Rect.unit (s := S32x640) ![0, 512] ![32, 128] inb_S32x640_S32x128_0_512).emb (ix2 p q) 0 = p :=
        Fin.ext (by show 0 + 1 * p.val = p.val; omega)
      unfold Gb
      rw [e1, e0]
      exact (row_range₂ x0 x1 p).symm
  · obtain ⟨p, q, rfl⟩ : ∃ (p : Fin 32) (q : Fin 128), x = ix2 p q := ⟨x 0, x 1, eq_ix2 x⟩
    simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, zero_apply, col_apply, bcol_apply, shapeCast_self, addf_apply]
    refine Eq.trans (b := acc (fun k => seq x1 p k * seq x1 p k) 32) ?_ ?_
    · simp only [acc, Nat.reduceMul]
      refine congrArg₂ (· + ·) ?_ (lane_dot _ _ _ _ _ _ 63488 _ _ _ _ _ p)
      refine congrArg₂ (· + ·) ?_ (lane_dot _ _ _ _ _ _ 61440 _ _ _ _ _ p)
      refine congrArg₂ (· + ·) ?_ (lane_dot _ _ _ _ _ _ 59392 _ _ _ _ _ p)
      refine congrArg₂ (· + ·) ?_ (lane_dot _ _ _ _ _ _ 57344 _ _ _ _ _ p)
      refine congrArg₂ (· + ·) ?_ (lane_dot _ _ _ _ _ _ 55296 _ _ _ _ _ p)
      refine congrArg₂ (· + ·) ?_ (lane_dot _ _ _ _ _ _ 53248 _ _ _ _ _ p)
      refine congrArg₂ (· + ·) ?_ (lane_dot _ _ _ _ _ _ 51200 _ _ _ _ _ p)
      refine congrArg₂ (· + ·) ?_ (lane_dot _ _ _ _ _ _ 49152 _ _ _ _ _ p)
      refine congrArg₂ (· + ·) ?_ (lane_dot _ _ _ _ _ _ 47104 _ _ _ _ _ p)
      refine congrArg₂ (· + ·) ?_ (lane_dot _ _ _ _ _ _ 45056 _ _ _ _ _ p)
      refine congrArg₂ (· + ·) ?_ (lane_dot _ _ _ _ _ _ 43008 _ _ _ _ _ p)
      refine congrArg₂ (· + ·) ?_ (lane_dot _ _ _ _ _ _ 40960 _ _ _ _ _ p)
      refine congrArg₂ (· + ·) ?_ (lane_dot _ _ _ _ _ _ 38912 _ _ _ _ _ p)
      refine congrArg₂ (· + ·) ?_ (lane_dot _ _ _ _ _ _ 36864 _ _ _ _ _ p)
      refine congrArg₂ (· + ·) ?_ (lane_dot _ _ _ _ _ _ 34816 _ _ _ _ _ p)
      refine congrArg₂ (· + ·) ?_ (lane_dot _ _ _ _ _ _ 32768 _ _ _ _ _ p)
      refine congrArg₂ (· + ·) ?_ (lane_dot _ _ _ _ _ _ 30720 _ _ _ _ _ p)
      refine congrArg₂ (· + ·) ?_ (lane_dot _ _ _ _ _ _ 28672 _ _ _ _ _ p)
      refine congrArg₂ (· + ·) ?_ (lane_dot _ _ _ _ _ _ 26624 _ _ _ _ _ p)
      refine congrArg₂ (· + ·) ?_ (lane_dot _ _ _ _ _ _ 24576 _ _ _ _ _ p)
      refine congrArg₂ (· + ·) ?_ (lane_dot _ _ _ _ _ _ 22528 _ _ _ _ _ p)
      refine congrArg₂ (· + ·) ?_ (lane_dot _ _ _ _ _ _ 20480 _ _ _ _ _ p)
      refine congrArg₂ (· + ·) ?_ (lane_dot _ _ _ _ _ _ 18432 _ _ _ _ _ p)
      refine congrArg₂ (· + ·) ?_ (lane_dot _ _ _ _ _ _ 16384 _ _ _ _ _ p)
      refine congrArg₂ (· + ·) ?_ (lane_dot _ _ _ _ _ _ 14336 _ _ _ _ _ p)
      refine congrArg₂ (· + ·) ?_ (lane_dot _ _ _ _ _ _ 12288 _ _ _ _ _ p)
      refine congrArg₂ (· + ·) ?_ (lane_dot _ _ _ _ _ _ 10240 _ _ _ _ _ p)
      refine congrArg₂ (· + ·) ?_ (lane_dot _ _ _ _ _ _ 8192 _ _ _ _ _ p)
      refine congrArg₂ (· + ·) ?_ (lane_dot _ _ _ _ _ _ 6144 _ _ _ _ _ p)
      refine congrArg₂ (· + ·) ?_ (lane_dot _ _ _ _ _ _ 4096 _ _ _ _ _ p)
      refine congrArg₂ (· + ·) ?_ (lane_dot _ _ _ _ _ _ 2048 _ _ _ _ _ p)
      refine congrArg₂ (· + ·) ?_ (lane_dot _ _ _ _ _ _ 0 _ _ _ _ _ p)
      rfl
    · rw [acc_eq]
      have e1 : ((Rect.unit (s := S32x640) ![0, 384] ![32, 128] inb_S32x640_S32x128_0_384).emb (ix2 p q) 1).val / 128 = 3 := by
        show (384 + 1 * q.val) / 128 = 3
        omega
      have e0 : (Rect.unit (s := S32x640) ![0, 384] ![32, 128] inb_S32x640_S32x128_0_384).emb (ix2 p q) 0 = p :=
        Fin.ext (by show 0 + 1 * p.val = p.val; omega)
      unfold Gb
      rw [e1, e0]
      exact (row_range₂ x1 x1 p).symm
  · obtain ⟨p, q, rfl⟩ : ∃ (p : Fin 32) (q : Fin 128), x = ix2 p q := ⟨x 0, x 1, eq_ix2 x⟩
    simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, zero_apply, col_apply, bcol_apply, shapeCast_self, addf_apply]
    refine Eq.trans (b := acc (fun k => seq x1 p k) 32) ?_ ?_
    · simp only [acc, Nat.reduceMul]
      refine congrArg₂ (· + ·) ?_ (lane_sum _ _ _ 63488 _ _ _ _ p)
      refine congrArg₂ (· + ·) ?_ (lane_sum _ _ _ 61440 _ _ _ _ p)
      refine congrArg₂ (· + ·) ?_ (lane_sum _ _ _ 59392 _ _ _ _ p)
      refine congrArg₂ (· + ·) ?_ (lane_sum _ _ _ 57344 _ _ _ _ p)
      refine congrArg₂ (· + ·) ?_ (lane_sum _ _ _ 55296 _ _ _ _ p)
      refine congrArg₂ (· + ·) ?_ (lane_sum _ _ _ 53248 _ _ _ _ p)
      refine congrArg₂ (· + ·) ?_ (lane_sum _ _ _ 51200 _ _ _ _ p)
      refine congrArg₂ (· + ·) ?_ (lane_sum _ _ _ 49152 _ _ _ _ p)
      refine congrArg₂ (· + ·) ?_ (lane_sum _ _ _ 47104 _ _ _ _ p)
      refine congrArg₂ (· + ·) ?_ (lane_sum _ _ _ 45056 _ _ _ _ p)
      refine congrArg₂ (· + ·) ?_ (lane_sum _ _ _ 43008 _ _ _ _ p)
      refine congrArg₂ (· + ·) ?_ (lane_sum _ _ _ 40960 _ _ _ _ p)
      refine congrArg₂ (· + ·) ?_ (lane_sum _ _ _ 38912 _ _ _ _ p)
      refine congrArg₂ (· + ·) ?_ (lane_sum _ _ _ 36864 _ _ _ _ p)
      refine congrArg₂ (· + ·) ?_ (lane_sum _ _ _ 34816 _ _ _ _ p)
      refine congrArg₂ (· + ·) ?_ (lane_sum _ _ _ 32768 _ _ _ _ p)
      refine congrArg₂ (· + ·) ?_ (lane_sum _ _ _ 30720 _ _ _ _ p)
      refine congrArg₂ (· + ·) ?_ (lane_sum _ _ _ 28672 _ _ _ _ p)
      refine congrArg₂ (· + ·) ?_ (lane_sum _ _ _ 26624 _ _ _ _ p)
      refine congrArg₂ (· + ·) ?_ (lane_sum _ _ _ 24576 _ _ _ _ p)
      refine congrArg₂ (· + ·) ?_ (lane_sum _ _ _ 22528 _ _ _ _ p)
      refine congrArg₂ (· + ·) ?_ (lane_sum _ _ _ 20480 _ _ _ _ p)
      refine congrArg₂ (· + ·) ?_ (lane_sum _ _ _ 18432 _ _ _ _ p)
      refine congrArg₂ (· + ·) ?_ (lane_sum _ _ _ 16384 _ _ _ _ p)
      refine congrArg₂ (· + ·) ?_ (lane_sum _ _ _ 14336 _ _ _ _ p)
      refine congrArg₂ (· + ·) ?_ (lane_sum _ _ _ 12288 _ _ _ _ p)
      refine congrArg₂ (· + ·) ?_ (lane_sum _ _ _ 10240 _ _ _ _ p)
      refine congrArg₂ (· + ·) ?_ (lane_sum _ _ _ 8192 _ _ _ _ p)
      refine congrArg₂ (· + ·) ?_ (lane_sum _ _ _ 6144 _ _ _ _ p)
      refine congrArg₂ (· + ·) ?_ (lane_sum _ _ _ 4096 _ _ _ _ p)
      refine congrArg₂ (· + ·) ?_ (lane_sum _ _ _ 2048 _ _ _ _ p)
      refine congrArg₂ (· + ·) ?_ (lane_sum _ _ _ 0 _ _ _ _ p)
      rfl
    · rw [acc_eq]
      have e1 : ((Rect.unit (s := S32x640) ![0, 256] ![32, 128] inb_S32x640_S32x128_0_256).emb (ix2 p q) 1).val / 128 = 2 := by
        show (256 + 1 * q.val) / 128 = 2
        omega
      have e0 : (Rect.unit (s := S32x640) ![0, 256] ![32, 128] inb_S32x640_S32x128_0_256).emb (ix2 p q) 0 = p :=
        Fin.ext (by show 0 + 1 * p.val = p.val; omega)
      unfold Gb
      rw [e1, e0]
      exact (row_range x1 p).symm
  · obtain ⟨p, q, rfl⟩ : ∃ (p : Fin 32) (q : Fin 128), x = ix2 p q := ⟨x 0, x 1, eq_ix2 x⟩
    simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, zero_apply, col_apply, bcol_apply, shapeCast_self, addf_apply]
    refine Eq.trans (b := acc (fun k => seq x0 p k * seq x0 p k) 32) ?_ ?_
    · simp only [acc, Nat.reduceMul]
      refine congrArg₂ (· + ·) ?_ (lane_dot _ _ _ _ _ _ 63488 _ _ _ _ _ p)
      refine congrArg₂ (· + ·) ?_ (lane_dot _ _ _ _ _ _ 61440 _ _ _ _ _ p)
      refine congrArg₂ (· + ·) ?_ (lane_dot _ _ _ _ _ _ 59392 _ _ _ _ _ p)
      refine congrArg₂ (· + ·) ?_ (lane_dot _ _ _ _ _ _ 57344 _ _ _ _ _ p)
      refine congrArg₂ (· + ·) ?_ (lane_dot _ _ _ _ _ _ 55296 _ _ _ _ _ p)
      refine congrArg₂ (· + ·) ?_ (lane_dot _ _ _ _ _ _ 53248 _ _ _ _ _ p)
      refine congrArg₂ (· + ·) ?_ (lane_dot _ _ _ _ _ _ 51200 _ _ _ _ _ p)
      refine congrArg₂ (· + ·) ?_ (lane_dot _ _ _ _ _ _ 49152 _ _ _ _ _ p)
      refine congrArg₂ (· + ·) ?_ (lane_dot _ _ _ _ _ _ 47104 _ _ _ _ _ p)
      refine congrArg₂ (· + ·) ?_ (lane_dot _ _ _ _ _ _ 45056 _ _ _ _ _ p)
      refine congrArg₂ (· + ·) ?_ (lane_dot _ _ _ _ _ _ 43008 _ _ _ _ _ p)
      refine congrArg₂ (· + ·) ?_ (lane_dot _ _ _ _ _ _ 40960 _ _ _ _ _ p)
      refine congrArg₂ (· + ·) ?_ (lane_dot _ _ _ _ _ _ 38912 _ _ _ _ _ p)
      refine congrArg₂ (· + ·) ?_ (lane_dot _ _ _ _ _ _ 36864 _ _ _ _ _ p)
      refine congrArg₂ (· + ·) ?_ (lane_dot _ _ _ _ _ _ 34816 _ _ _ _ _ p)
      refine congrArg₂ (· + ·) ?_ (lane_dot _ _ _ _ _ _ 32768 _ _ _ _ _ p)
      refine congrArg₂ (· + ·) ?_ (lane_dot _ _ _ _ _ _ 30720 _ _ _ _ _ p)
      refine congrArg₂ (· + ·) ?_ (lane_dot _ _ _ _ _ _ 28672 _ _ _ _ _ p)
      refine congrArg₂ (· + ·) ?_ (lane_dot _ _ _ _ _ _ 26624 _ _ _ _ _ p)
      refine congrArg₂ (· + ·) ?_ (lane_dot _ _ _ _ _ _ 24576 _ _ _ _ _ p)
      refine congrArg₂ (· + ·) ?_ (lane_dot _ _ _ _ _ _ 22528 _ _ _ _ _ p)
      refine congrArg₂ (· + ·) ?_ (lane_dot _ _ _ _ _ _ 20480 _ _ _ _ _ p)
      refine congrArg₂ (· + ·) ?_ (lane_dot _ _ _ _ _ _ 18432 _ _ _ _ _ p)
      refine congrArg₂ (· + ·) ?_ (lane_dot _ _ _ _ _ _ 16384 _ _ _ _ _ p)
      refine congrArg₂ (· + ·) ?_ (lane_dot _ _ _ _ _ _ 14336 _ _ _ _ _ p)
      refine congrArg₂ (· + ·) ?_ (lane_dot _ _ _ _ _ _ 12288 _ _ _ _ _ p)
      refine congrArg₂ (· + ·) ?_ (lane_dot _ _ _ _ _ _ 10240 _ _ _ _ _ p)
      refine congrArg₂ (· + ·) ?_ (lane_dot _ _ _ _ _ _ 8192 _ _ _ _ _ p)
      refine congrArg₂ (· + ·) ?_ (lane_dot _ _ _ _ _ _ 6144 _ _ _ _ _ p)
      refine congrArg₂ (· + ·) ?_ (lane_dot _ _ _ _ _ _ 4096 _ _ _ _ _ p)
      refine congrArg₂ (· + ·) ?_ (lane_dot _ _ _ _ _ _ 2048 _ _ _ _ _ p)
      refine congrArg₂ (· + ·) ?_ (lane_dot _ _ _ _ _ _ 0 _ _ _ _ _ p)
      rfl
    · rw [acc_eq]
      have e1 : ((Rect.unit (s := S32x640) ![0, 128] ![32, 128] inb_S32x640_S32x128_0_128).emb (ix2 p q) 1).val / 128 = 1 := by
        show (128 + 1 * q.val) / 128 = 1
        omega
      have e0 : (Rect.unit (s := S32x640) ![0, 128] ![32, 128] inb_S32x640_S32x128_0_128).emb (ix2 p q) 0 = p :=
        Fin.ext (by show 0 + 1 * p.val = p.val; omega)
      unfold Gb
      rw [e1, e0]
      exact (row_range₂ x0 x0 p).symm
  · obtain ⟨p, q, rfl⟩ : ∃ (p : Fin 32) (q : Fin 128), x = ix2 p q := ⟨x 0, x 1, eq_ix2 x⟩
    simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, zero_apply, col_apply, bcol_apply, shapeCast_self, addf_apply]
    refine Eq.trans (b := acc (fun k => seq x0 p k) 32) ?_ ?_
    · simp only [acc, Nat.reduceMul]
      refine congrArg₂ (· + ·) ?_ (lane_sum _ _ _ 63488 _ _ _ _ p)
      refine congrArg₂ (· + ·) ?_ (lane_sum _ _ _ 61440 _ _ _ _ p)
      refine congrArg₂ (· + ·) ?_ (lane_sum _ _ _ 59392 _ _ _ _ p)
      refine congrArg₂ (· + ·) ?_ (lane_sum _ _ _ 57344 _ _ _ _ p)
      refine congrArg₂ (· + ·) ?_ (lane_sum _ _ _ 55296 _ _ _ _ p)
      refine congrArg₂ (· + ·) ?_ (lane_sum _ _ _ 53248 _ _ _ _ p)
      refine congrArg₂ (· + ·) ?_ (lane_sum _ _ _ 51200 _ _ _ _ p)
      refine congrArg₂ (· + ·) ?_ (lane_sum _ _ _ 49152 _ _ _ _ p)
      refine congrArg₂ (· + ·) ?_ (lane_sum _ _ _ 47104 _ _ _ _ p)
      refine congrArg₂ (· + ·) ?_ (lane_sum _ _ _ 45056 _ _ _ _ p)
      refine congrArg₂ (· + ·) ?_ (lane_sum _ _ _ 43008 _ _ _ _ p)
      refine congrArg₂ (· + ·) ?_ (lane_sum _ _ _ 40960 _ _ _ _ p)
      refine congrArg₂ (· + ·) ?_ (lane_sum _ _ _ 38912 _ _ _ _ p)
      refine congrArg₂ (· + ·) ?_ (lane_sum _ _ _ 36864 _ _ _ _ p)
      refine congrArg₂ (· + ·) ?_ (lane_sum _ _ _ 34816 _ _ _ _ p)
      refine congrArg₂ (· + ·) ?_ (lane_sum _ _ _ 32768 _ _ _ _ p)
      refine congrArg₂ (· + ·) ?_ (lane_sum _ _ _ 30720 _ _ _ _ p)
      refine congrArg₂ (· + ·) ?_ (lane_sum _ _ _ 28672 _ _ _ _ p)
      refine congrArg₂ (· + ·) ?_ (lane_sum _ _ _ 26624 _ _ _ _ p)
      refine congrArg₂ (· + ·) ?_ (lane_sum _ _ _ 24576 _ _ _ _ p)
      refine congrArg₂ (· + ·) ?_ (lane_sum _ _ _ 22528 _ _ _ _ p)
      refine congrArg₂ (· + ·) ?_ (lane_sum _ _ _ 20480 _ _ _ _ p)
      refine congrArg₂ (· + ·) ?_ (lane_sum _ _ _ 18432 _ _ _ _ p)
      refine congrArg₂ (· + ·) ?_ (lane_sum _ _ _ 16384 _ _ _ _ p)
      refine congrArg₂ (· + ·) ?_ (lane_sum _ _ _ 14336 _ _ _ _ p)
      refine congrArg₂ (· + ·) ?_ (lane_sum _ _ _ 12288 _ _ _ _ p)
      refine congrArg₂ (· + ·) ?_ (lane_sum _ _ _ 10240 _ _ _ _ p)
      refine congrArg₂ (· + ·) ?_ (lane_sum _ _ _ 8192 _ _ _ _ p)
      refine congrArg₂ (· + ·) ?_ (lane_sum _ _ _ 6144 _ _ _ _ p)
      refine congrArg₂ (· + ·) ?_ (lane_sum _ _ _ 4096 _ _ _ _ p)
      refine congrArg₂ (· + ·) ?_ (lane_sum _ _ _ 2048 _ _ _ _ p)
      refine congrArg₂ (· + ·) ?_ (lane_sum _ _ _ 0 _ _ _ _ p)
      rfl
    · rw [acc_eq]
      have e1 : ((Rect.unit (s := S32x640) ![0, 0] ![32, 128] inb_S32x640_S32x128_0_0).emb (ix2 p q) 1).val / 128 = 0 := by
        show (0 + 1 * q.val) / 128 = 0
        omega
      have e0 : (Rect.unit (s := S32x640) ![0, 0] ![32, 128] inb_S32x640_S32x128_0_0).emb (ix2 p q) 0 = p :=
        Fin.ext (by show 0 + 1 * p.val = p.val; omega)
      unfold Gb
      rw [e1, e0]
      exact (row_range x0 p).symm

/-- What the body leaves in the output's staging buffer, index by index: the moments of the two input blocks. -/
theorem block_value (c : Dev nD) (i : grid0.Coords) (arg1 : Memref sig .tc .vmem S32x65536 .f32) (harg1 : arg1.IsWhole) (arg2 : Memref sig .tc .vmem S32x65536 .f32) (harg2 : arg2.IsWhole) (arg3 : Memref sig .tc .vmem S32x640 .f32) (harg3 : arg3.IsWhole)
    (x0 x1 : Vec Ideal S32x65536 .f32) (y : S32x640.Idx) :
    out0_A_2 (F := Ideal) c i arg1 harg1 arg2 harg2 arg3 harg3 x0 x1 y = Gb x0 x1 y := by
  unfold out0_A_2
  rw [View.read_writes_eq_canon _ _ _ (cover0_A_2 c i arg1 harg1 arg2 harg2 arg3 harg3 x0 x1)]
  exact View.canon_apply_of_pieces (Gb x0 x1) _ (pieces_value c i arg1 harg1 arg2 harg2 arg3 harg3 x0 x1) y
    (cover0_A_2 c i arg1 harg1 arg2 harg2 arg3 harg3 x0 x1 y)

end Cert.KernelIdeal.Block
end
-- ==== Proof.KernelPacked.lean ====
/-
  From the blocks to the whole output array, and the two arrays the region reads.

  The grid has 24 points; at point t each of the three windows sits on rows 32t … 32t+31 of its array (all columns).
  The body leaves in the 32 × 640 output block, at row p and column group g, the g-th moment of row p of the two input
  blocks; row p of an input block at point t is row 32t + p of the input array, so the value written back at row
  32t + p of the output array is the g-th moment of that row of the two arrays. Every row r of the 768 lies in the block
  of point r / 32, and every point writes its block back, so after the last point the output array holds, at (r, column),
  the moment of row r that the column's group selects.

  The two arrays the region reads are the two arguments reshaped from five axes to 768 × 65536.
-/
import proofs.«102069_j82686710383027_2_alg».proof.Proof.KernelBlock
import proofs.«102069_j82686710383027_2_alg».proof.Proof.Spec
import proofs.«102069_j82686710383027_2_alg».proof.Proof.Gen.KernelIdeal.Frame
import Idealize.ShloMosaic.Lib.Pipeline.Value
import Idealize.ShloMosaic.Lib.ValueLayout
import Idealize.ShloMosaic.Lib.StableHlo.Run

set_option maxRecDepth 16384

noncomputable section

namespace Cert.KernelIdeal.Packed

open Idealize.ShloMosaic Idealize.ShloMosaic.TcCoe Idealize.ShloMosaic.ValueIdx Idealize.SL.Sem
open Cert.KernelIdeal Cert.KernelIdeal.Gen
open Idealize.ShloMosaic.Pipeline (Dat)

/-- The five moments of the whole arrays, packed: row r, column group g. -/
def G (X Y : Cert.Spec.SX.Idx → EReal) (j : S768x640.Idx) : EReal :=
  match (j 1).val / 128 with
  | 0 => Cert.Spec.rowSum X (j 0)
  | 1 => Cert.Spec.rowDot X X (j 0)
  | 2 => Cert.Spec.rowSum Y (j 0)
  | 3 => Cert.Spec.rowDot Y Y (j 0)
  | _ => Cert.Spec.rowDot X Y (j 0)

/-- The first column of each group holds that group's moment of the row. -/
theorem G_cols (X Y : Cert.Spec.SX.Idx → EReal) (r : Fin 768) :
    G X Y (ix2 r 0) = Cert.Spec.rowSum X r ∧ G X Y (ix2 r 128) = Cert.Spec.rowDot X X r
      ∧ G X Y (ix2 r 256) = Cert.Spec.rowSum Y r ∧ G X Y (ix2 r 384) = Cert.Spec.rowDot Y Y r
      ∧ G X Y (ix2 r 512) = Cert.Spec.rowDot X Y r :=
  by
  refine ⟨?_, ?_, ?_, ?_, ?_⟩ <;> simp [G]

/-- The moments of a block are the moments of the arrays at the rows the block sits on. -/
theorem Gb_eq_G (X Y : Cert.Spec.SX.Idx → EReal) (x0 x1 : S32x65536.Idx → EReal) (y : S32x640.Idx) (j : S768x640.Idx)
    (hj1 : (j 1).val = (y 1).val)
    (h0 : ∀ k : Fin 65536, x0 (ix2 (y 0) k) = X (ix2 (j 0) k))
    (h1 : ∀ k : Fin 65536, x1 (ix2 (y 0) k) = Y (ix2 (j 0) k)) :
    Block.Gb x0 x1 y = G X Y j := by
  unfold Block.Gb G
  rw [hj1]
  simp only [Cert.Spec.rowSum, Cert.Spec.rowDot, h0, h1]
  rfl

/-- The printed index maps, decided over the grid: at point t every window sits on block (t, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

variable (m : (ℓ : Loc nD τ sig) → Buf (Elt Ideal) ℓ)

/-- Input window 0's block at point t is rows 32t … 32t+31 of its array. -/
theorem iblk0_apply (c : Dev nD) (t : Fin cfg0.N) (x : S32x65536.Idx) (k : S768x65536.Idx)
    (hk0 : (k 0).val = 32 * t.val + (x 0).val) (hk1 : (k 1).val = (x 1).val) :
    (iblk m c 0 t : Vec Ideal S32x65536 .f32) x = (V m c main_v0 : S768x65536.Idx → EReal) k := by
  obtain ⟨e0, e1, -⟩ := idx_facts t
  unfold iblk
  rw [View.read_apply]
  refine congrArg (V m c main_v0 : S768x65536.Idx → EReal) ?_
  funext a
  apply Fin.ext
  match a with
  | ⟨0, _⟩ => show win0_0.index t 0 * 32 + 1 * (x 0).val = (k 0).val; rw [e0, hk0]; omega
  | ⟨1, _⟩ => show win0_0.index t 1 * 65536 + 1 * (x 1).val = (k 1).val; rw [e1, hk1]; omega

/-- Input window 1's block at point t is rows 32t … 32t+31 of its array. -/
theorem iblk1_apply (c : Dev nD) (t : Fin cfg0.N) (x : S32x65536.Idx) (k : S768x65536.Idx)
    (hk0 : (k 0).val = 32 * t.val + (x 0).val) (hk1 : (k 1).val = (x 1).val) :
    (iblk m c 1 t : Vec Ideal S32x65536 .f32) x = (V m c main_v1 : S768x65536.Idx → EReal) k := by
  obtain ⟨-, -, e0, e1, -⟩ := idx_facts t
  unfold iblk
  rw [View.read_apply]
  refine congrArg (V m c main_v1 : S768x65536.Idx → EReal) ?_
  funext a
  apply Fin.ext
  match a with
  | ⟨0, _⟩ => show win0_1.index t 0 * 32 + 1 * (x 0).val = (k 0).val; rw [e0, hk0]; omega
  | ⟨1, _⟩ => show win0_1.index t 1 * 65536 + 1 * (x 1).val = (k 1).val; rw [e1, hk1]; omega

/-- What point t writes back is block t of the packed moments of the two arrays. -/
theorem flushed_eq (c : Dev nD) (t : Fin cfg0.N) :
    (dats m 0 c).flushed 2 t
      = ((cfg0.win 2).blk t).view.read (Elt Ideal) (G (V m c main_v0) (V m c main_v1)) := by
  show (cfg0.win 2).cut (grid0.coords t) ((dats m 0 c).after 2 t) = _
  rw [after0_2]
  unfold outsAt0
  funext y
  rw [View.read_apply]
  show out0_A_2 c (grid0.coords t) _ _ _ _ _ _ (iblk m c 0 t) (iblk m c 1 t) y = _
  rw [Block.block_value]
  obtain ⟨-, -, -, -, e4, e5⟩ := idx_facts t
  have hj0 : ((((cfg0.win 2).blk t).view.emb y) 0).val = 32 * t.val + (y 0).val := by
    show win0_2.index t 0 * 32 + 1 * (y 0).val = _
    rw [e4]; omega
  have hj1 : ((((cfg0.win 2).blk t).view.emb y) 1).val = (y 1).val := by
    show win0_2.index t 1 * 640 + 1 * (y 1).val = _
    rw [e5]; omega
  exact Gb_eq_G _ _ _ _ y _ hj1 (fun k => iblk0_apply m c t _ _ hj0 rfl) (fun k => iblk1_apply m c t _ _ hj0 rfl)

/-- An index of the array is in point t's block iff each coordinate is in the block's range on its axis. -/
theorem mem_blk (t : Fin cfg0.N) (i : S768x640.Idx) :
    i ∈ ((cfg0.win 2).blk t).view.set ↔ ∀ a : Fin 2, win0_2.index t a * S32x640.size a ≤ (i a).val
      ∧ (i a).val < win0_2.index t a * S32x640.size a + S32x640.size a := by
  show i ∈ ((View.whole main_v2).slice (win0_2.rect t)).set ↔ _
  rw [View.set_slice_whole, Rect.mem_set_unit]
  exact Iff.rfl

/-- Row r lies in the block of point r / 32. -/
theorem cover (i : S768x640.Idx) :
    ∃ t : Fin cfg0.N, (cfg0.win 2).flush t = true ∧ i ∈ ((cfg0.win 2).blk t).view.set := by
  have hN : cfg0.N = 24 := N_0
  have hi0 : (i 0).val < 768 := (i 0).isLt
  have hi1 : (i 1).val < 640 := (i 1).isLt
  have ht : (i 0).val / 32 < cfg0.N := by rw [hN]; omega
  obtain ⟨-, -, -, -, e4, e5⟩ := idx_facts ⟨(i 0).val / 32, ht⟩
  refine ⟨⟨(i 0).val / 32, ht⟩, flush0_2 _, ?_⟩
  rw [mem_blk]
  intro a
  match a with
  | ⟨0, _⟩ =>
    show win0_2.index ⟨(i 0).val / 32, ht⟩ 0 * 32 ≤ (i 0).val ∧ (i 0).val < win0_2.index ⟨(i 0).val / 32, ht⟩ 0 * 32 + 32
    rw [e4]; show (i 0).val / 32 * 32 ≤ (i 0).val ∧ (i 0).val < (i 0).val / 32 * 32 + 32; omega
  | ⟨1, _⟩ =>
    show win0_2.index ⟨(i 0).val / 32, ht⟩ 1 * 640 ≤ (i 1).val ∧ (i 1).val < win0_2.index ⟨(i 0).val / 32, ht⟩ 1 * 640 + 640
    rw [e5]; omega

/-- The output array after the last point: the packed moments of the two arrays the region reads. -/
theorem final (c : Dev nD) : (dats m 0 c).arrAt 2 cfg0.N = G (V m c main_v0) (V m c main_v1) :=
  (dats m 0 c).arrAt_eq_of_cover 2 (G (V m c main_v0) (V m c main_v1)) (fun t _ => flushed_eq m c t) cover

/-- The first array the region reads is the first argument reshaped to 768 × 65536. -/
theorem V_main_v0 (c : Dev nD) : (V m c main_v0 : S768x65536.Idx → EReal)
    = shapeCast S768x65536 (m ((c : Thread nD τ).loc main_arg0)) Gen.shapeCasts_S8x16x6x256x256_S768x65536 := by
  show StableHlo.after hostOps0 (fun b => m (c, b)) (Proc.devRef .tc main_v0) = _
  after_results
  rfl

/-- The second array the region reads is the second argument reshaped to 768 × 65536. -/
theorem V_main_v1 (c : Dev nD) : (V m c main_v1 : S768x65536.Idx → EReal)
    = shapeCast S768x65536 (m ((c : Thread nD τ).loc main_arg1)) Gen.shapeCasts_S8x16x6x256x256_S768x65536 := by
  show StableHlo.after hostOps0 (fun b => m (c, b)) (Proc.devRef .tc main_v1) = _
  after_results
  rfl

end Cert.KernelIdeal.Packed

end
-- ==== Proof.KernelTail.lean ====
/-
  The host operations that follow the region, read as one function of the region's output array.

  The output array P has 768 rows and 640 columns; a row holds five moments of the row's samples, each in the
  first column of its own block of 128 columns: Σx at column 0, Σx² at 128, Σy at 256, Σy² at 384, Σxy at 512.
  The host operations cut the five columns out (a slice [0:768, c:c+1], then the cast [768,1] → [768], which at
  row r reads P(r, c)), form the three unbiased variances from the moments,
      v_x = (Σx² − (Σx)²/n)/(n−1),  v_y likewise,  v_{x+y} = ((Σx² + 2·Σxy + Σy²) − (Σx + Σy)²/n)/(n−1),
  and apply the closing chain to them. Every step is an element-wise operation read at an index, so the whole is the
  closing chain applied to the three variance vectors written over P.
-/
import proofs.«102069_j82686710383027_2_alg».proof.Proof.Gen.KernelIdeal.Frame
import proofs.«102069_j82686710383027_2_alg».proof.Proof.Spec
import Idealize.ShloMosaic.Lib.ValueLayout
import Idealize.ShloMosaic.Lib.Pipeline.Value
import Idealize.ShloMosaic.Lib.StableHlo.Run

set_option maxRecDepth 16384

noncomputable section

namespace Cert.KernelIdeal.Tail

open Idealize.ShloMosaic Idealize.ShloMosaic.ValueIdx Cert.KernelIdeal Cert.KernelIdeal.Gen

/-- A column cut out of the 768 × 640 array and cast to a vector reads, at row r, the array at (r, column). -/
theorem col_fun (P : S768x640.Idx → EReal) (o : Nat) (hs : S768x640.Slices ![0, o] S768x1)
    (hc : S768x1.ShapeCasts S768) (k : Fin 640) (hk : k.val = o) :
    (fun i => shapeCast S768 (extractStridedSlice S768x1 ![0, o] P hs) hc i)
      = fun i : S768.Idx => P (ix2 (i 0) k) := by
  funext i
  obtain ⟨r, rfl⟩ : ∃ r : Fin 768, i = ix1 r := ⟨i 0, eq_ix1 i⟩
  refine (shapeCast_apply _ hc (ix1 r) (ix2 r (0 : Fin 1)) ?_).trans ?_
  · rw [Shape.rowMajor_val_two, Shape.rowMajor_val_one]
    show r.val * 1 + 0 = r.val
    omega
  · exact slice2_axis1_apply o P hs r 0 k (by rw [hk]; rfl)

/-- The variance from two moment columns: (Σx² − (Σx)²/n)/(n−1) with Σx in column ka and Σx² in column kb. -/
theorem vm_fun (P : S768x640.Idx → EReal) (oa ob : Nat) (hsa : S768x640.Slices ![0, oa] S768x1)
    (hsb : S768x640.Slices ![0, ob] S768x1) (hc : S768x1.ShapeCasts S768)
    (hbc : S_.BroadcastsInDim S768 (![] : Fin 0 → Fin S768.rank))
    (ka kb : Fin 640) (hka : ka.val = oa) (hkb : kb.val = ob) :
    Host.divf (F := Ideal)
        (subf (fun i => shapeCast S768 (extractStridedSlice S768x1 ![0, ob] P hsb) hc i)
          (Host.divf
            (mulf (fun i => shapeCast S768 (extractStridedSlice S768x1 ![0, oa] P hsa) hc i)
              (fun i => shapeCast S768 (extractStridedSlice S768x1 ![0, oa] P hsa) hc i))
            (broadcastInDim S768 ![] hbc (constant (F := Ideal) S_ .f32 0x47800000#32))))
        (broadcastInDim S768 ![] hbc (constant (F := Ideal) S_ .f32 0x477FFF00#32))
      = fun i : S768.Idx => Cert.Spec.varMoments (P (ix2 (i 0) ka)) (P (ix2 (i 0) kb)) := by
  rw [col_fun P oa hsa hc ka hka, col_fun P ob hsb hc kb hkb]
  rfl

/-- The variance of the sum from the five moment columns. -/
theorem vms_fun (P : S768x640.Idx → EReal) (o0 o1 o2 o3 o4 : Nat) (hs0 : S768x640.Slices ![0, o0] S768x1)
    (hs1 : S768x640.Slices ![0, o1] S768x1) (hs2 : S768x640.Slices ![0, o2] S768x1)
    (hs3 : S768x640.Slices ![0, o3] S768x1) (hs4 : S768x640.Slices ![0, o4] S768x1)
    (hc : S768x1.ShapeCasts S768) (hbc : S_.BroadcastsInDim S768 (![] : Fin 0 → Fin S768.rank))
    (k0 k1 k2 k3 k4 : Fin 640) (hk0 : k0.val = o0) (hk1 : k1.val = o1) (hk2 : k2.val = o2) (hk3 : k3.val = o3)
    (hk4 : k4.val = o4) :
    Host.divf (F := Ideal)
        (subf
          (addf
            (addf (fun i => shapeCast S768 (extractStridedSlice S768x1 ![0, o1] P hs1) hc i)
              (mulf (broadcastInDim S768 ![] hbc (constant (F := Ideal) S_ .f32 0x40000000#32))
                (fun i => shapeCast S768 (extractStridedSlice S768x1 ![0, o4] P hs4) hc i)))
            (fun i => shapeCast S768 (extractStridedSlice S768x1 ![0, o3] P hs3) hc i))
          (Host.divf
            (mulf
              (addf (fun i => shapeCast S768 (extractStridedSlice S768x1 ![0, o0] P hs0) hc i)
                (fun i => shapeCast S768 (extractStridedSlice S768x1 ![0, o2] P hs2) hc i))
              (addf (fun i => shapeCast S768 (extractStridedSlice S768x1 ![0, o0] P hs0) hc i)
                (fun i => shapeCast S768 (extractStridedSlice S768x1 ![0, o2] P hs2) hc i)))
            (broadcastInDim S768 ![] hbc (constant (F := Ideal) S_ .f32 0x47800000#32))))
        (broadcastInDim S768 ![] hbc (constant (F := Ideal) S_ .f32 0x477FFF00#32))
      = fun i : S768.Idx => Cert.Spec.varMomentsSum (P (ix2 (i 0) k0)) (P (ix2 (i 0) k1)) (P (ix2 (i 0) k2))
          (P (ix2 (i 0) k3)) (P (ix2 (i 0) k4)) := by
  rw [col_fun P o0 hs0 hc k0 hk0, col_fun P o1 hs1 hc k1 hk1, col_fun P o2 hs2 hc k2 hk2,
    col_fun P o3 hs3 hc k3 hk3, col_fun P o4 hs4 hc k4 hk4]
  rfl

/-- The closing chain at equal variance vectors. -/
theorem finalChain_congr (hb : Cert.Spec.S0.BroadcastsInDim Cert.Spec.SR (![] : Fin 0 → Fin Cert.Spec.SR.rank))
    (hr : Cert.Spec.SR.ReducesTo [0] Cert.Spec.S0) (h0 : 0 < Cert.Spec.S0.numel)
    {a a' b b' c c' : FVec Ideal Cert.Spec.SR .f32} (ha : a = a') (hb' : b = b') (hc : c = c') :
    Cert.Spec.finalChain hb hr h0 a b c = Cert.Spec.finalChain hb hr h0 a' b' c' := by
  rw [ha, hb', hc]

theorem tail_value (m : (ℓ : Loc nD τ sig) → Buf (Elt Ideal) ℓ) (c : Dev nD) (P : FVec Ideal S768x640 .f32)
    (hP : (dats m 0 c).arrAt 2 cfg0.N = P) :
    Pipeline.afterTail₀ cfgs (dats m) 0 (V0 m) [hostOps1] c main_v47
      = Cert.Spec.finalChain Gen.bcast_S_S768 Gen.reducesTo_S768_S_d0 Gen.h_S_
          (fun i => Cert.Spec.varMoments (P (ix2 (i 0) 0)) (P (ix2 (i 0) 128)))
          (fun i => Cert.Spec.varMoments (P (ix2 (i 0) 256)) (P (ix2 (i 0) 384)))
          (fun i => Cert.Spec.varMomentsSum (P (ix2 (i 0) 0)) (P (ix2 (i 0) 128)) (P (ix2 (i 0) 256))
            (P (ix2 (i 0) 384)) (P (ix2 (i 0) 512))) := by
  unfold Pipeline.afterTail₀
  show StableHlo.after hostOps1 _ (Proc.devRef .tc main_v47) = _
  after_results_simp
  rw [show Pipeline.withArrays (cfgs 0).spec c (V0 m c) (fun w => (dats m 0 c).arrAt w (cfgs 0).N)
      (Proc.devRef .tc main_v2) = P from (Pipeline.withArrays_arr spec0 winFacts0.arr_inj c _ _ 2).trans hP]
  refine Eq.trans (b := Cert.Spec.finalChain Gen.bcast_S_S768 Gen.reducesTo_S768_S_d0 Gen.h_S_ _ _ _) rfl
    (finalChain_congr _ _ _ ?_ ?_ ?_)
  · exact vm_fun P 0 128 _ _ _ _ 0 128 rfl rfl
  · exact vm_fun P 256 384 _ _ _ _ 256 384 rfl rfl
  · exact vms_fun P 0 128 256 384 512 _ _ _ _ _ _ _ 0 128 256 384 512 rfl rfl rfl rfl rfl

end Cert.KernelIdeal.Tail

end
-- ==== Proof.KernelValue.lean ====
/-
  The idealized kernel program's run, read as a value.

  After the region the output array holds the packed row moments of the two flattened inputs; the host operations after
  the region slice the five moment columns out of it and form the three unbiased variances from the moments, then apply
  the closing chain. So the program's result is the closing chain of (var from moments of X, var from moments of Y,
  var from the combined moments of X and Y), X and Y the inputs flattened to 768 rows.
-/
import proofs.«102069_j82686710383027_2_alg».proof.Proof.KernelResult
import proofs.«102069_j82686710383027_2_alg».proof.Proof.KernelPacked
import proofs.«102069_j82686710383027_2_alg».proof.Proof.KernelTail

set_option maxRecDepth 16384

noncomputable section
namespace Cert.KernelIdeal.Value
open Idealize.ShloMosaic Idealize.ShloMosaic.TcCoe Idealize.ShloMosaic.ValueIdx Idealize.SL.Sem Cert.KernelIdeal Cert.KernelIdeal.Gen

/-- What the result buffer holds after the lines that follow the region. -/
theorem tail_result (m : (ℓ : Loc nD τ sig) → Buf (Elt Ideal) ℓ) (c : Dev nD) :
    Pipeline.afterTail₀ cfgs (dats m) 0 (V0 m) [hostOps1] c main_v47
      = result (m ((c : Thread nD τ).loc main_arg0)) (m ((c : Thread nD τ).loc main_arg1)) := by
  rw [Cert.KernelIdeal.Tail.tail_value m c _ (Cert.KernelIdeal.Packed.final m c)]
  unfold result
  rw [Cert.KernelIdeal.Packed.V_main_v0, Cert.KernelIdeal.Packed.V_main_v1]
  refine Cert.KernelIdeal.Tail.finalChain_congr _ _ _ (funext fun i => ?_) (funext fun i => ?_) (funext fun i => ?_) <;>
    obtain ⟨h0, h1, h2, h3, h4⟩ := Cert.KernelIdeal.Packed.G_cols (rows (m ((c : Thread nD τ).loc main_arg0))) (rows (m ((c : Thread nD τ).loc main_arg1))) (i 0)
  · exact congrArg₂ Cert.Spec.varMoments h0 h1
  · exact congrArg₂ Cert.Spec.varMoments h2 h3
  · exact congr (congr (congr (congr (congrArg Cert.Spec.varMomentsSum h0) h1) h2) h3) h4

/-- Every weakly fair execution of the idealized kernel program ends with the result buffer at `result` of the inputs, the
    inputs unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v47) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v47 (Pipeline.mem_restRefs_of main_v47 (by decide) (by decide))).trans (tail_result m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Value
end
-- ==== Proof.RefOps.lean ====
/-
  The reference program as a straight line of host operations.

  The printed @main is two reshapes of the inputs to 768 rows of 65536 samples, then three calls of the outlined
  variance function (on the first input, on the second, and on their sum), then sixteen operations closing the chain.
  A call executes the callee's body on the operands, so @main is one line of operations: each call's twenty-three
  operations (twenty of the variance function, three of the select function it calls) listed over that call's own
  buffers. The line is cut into five consecutive pieces: the reshapes, one piece per call (with the constant or the
  sum that precedes it), and the closing chain. What a piece leaves in one buffer is computed piece by piece in the
  sibling modules; here the line, that @main is that line, and the run of the line.
-/
import proofs.«102069_j82686710383027_2_alg».proof.ReferenceIdeal
import Idealize.ShloMosaic.Lib.StableHlo.Run

noncomputable section

namespace Cert.RefSide

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-- The three operations of the select function over one call's buffers: the fill value converted to its own
    type, broadcast to the rows, and the select under the broadcast predicate. -/
abbrev whereOps (a0 : TRef sig ⟨S_, .i1⟩) (a1 : TRef sig ⟨S768, .f32⟩) (a2 : TRef sig ⟨S_, .f32⟩) (φ : fn_where.Bufs) :
    List (HloOp τ sig (Elt F)) :=
  [ TRef.unary a2 φ.v0 id,
    TRef.unary φ.v0 φ.v1 (broadcastInDim S768 ![] bcast_S_S768),
    TRef.ternary a0 a1 φ.v1 φ.v2 (fun p a b => select (broadcastInDim S768 ![] bcast_S_S768 p) a b) ]

/-- The twenty operations of the variance function over one call's buffers, then the select function's three:
    the row sums, the mean broadcast back over the samples, the centred samples and their squares, the divisor
    n − ddof, the sums of squares over it, and the select on the divisor being positive. -/
abbrev varOps (a0 : TRef sig ⟨S768x65536, .f32⟩) (a1 : TRef sig ⟨S_, .i32⟩) (φ : fn_var.Bufs) : List (HloOp τ sig (Elt F)) :=
  [ TRef.nullary φ.cst (constant S_ .f32 0x00000000#32),
    TRef.binary a0 φ.cst φ.v0 (fun x v => Host.reduceAdd x v reducesTo_S768x65536_S768_d1 h_S_),
    TRef.unary φ.v0 φ.v1 (broadcastInDim S768x1 ![0] bcast_S768_S768x1_0),
    TRef.nullary φ.cst_0 (constant S_ .f32 0x47800000#32),
    TRef.unary φ.cst_0 φ.v2 (broadcastInDim S768x1 ![] bcast_S_S768x1),
    TRef.binary φ.v1 φ.v2 φ.v3 Host.divf,
    TRef.unary φ.v3 φ.v4 (broadcastInDim S768x65536 ![0, 1] bcast_S768x1_S768x65536_0_1),
    TRef.binary a0 φ.v4 φ.v5 subf,
    TRef.binary φ.v5 φ.v5 φ.v6 mulf,
    TRef.unary a1 φ.v7 (sitofp .f32),
    TRef.nullary φ.cst_1 (constant S_ .f32 0x47800000#32),
    TRef.binary φ.cst_1 φ.v7 φ.v8 subf,
    TRef.nullary φ.cst_2 (constant S_ .f32 0x00000000#32),
    TRef.binary φ.v6 φ.cst_2 φ.v9 (fun x v => Host.reduceAdd x v reducesTo_S768x65536_S768_d1 h_S_),
    TRef.unary φ.v8 φ.v10 (broadcastInDim S768 ![] bcast_S_S768),
    TRef.binary φ.v9 φ.v10 φ.v11 Host.divf,
    TRef.nullary φ.cst_3 (constant S_ .f32 0x00000000#32),
    TRef.binary φ.v8 φ.cst_3 φ.v12 (cmpf .ogt),
    TRef.nullary φ.cst_4 (constant S_ .f32 0x7FC00000#32) ]
  ++ whereOps φ.v12 φ.v11 φ.cst_4 φ.call0

/-- The two reshapes of the inputs to 768 rows of 65536 samples. -/
abbrev ops0 : List (HloOp τ sig (Elt F)) :=
  [ reshape main_arg0 main_v0 rfl shapeCasts_S8x16x6x256x256_S768x65536,
    reshape main_arg1 main_v1 rfl shapeCasts_S8x16x6x256x256_S768x65536 ]

/-- The first call: the variance of the first input's rows (ddof the integer constant before it). -/
abbrev opsA : List (HloOp τ sig (Elt F)) :=
  nullary main_c (constantI S_ 32 1#32) :: varOps (.of main_v0) (.of main_c) main_call0

/-- The second call: the variance of the second input's rows. -/
abbrev opsB : List (HloOp τ sig (Elt F)) :=
  nullary main_c_0 (constantI S_ 32 1#32) :: varOps (.of main_v1) (.of main_c_0) main_call1

/-- The sum of the two inputs and the third call: the variance of the sum's rows. -/
abbrev opsC : List (HloOp τ sig (Elt F)) :=
  binary main_v0 main_v1 main_v4 (addf : (⟨S768x65536, .f32⟩ : BufTy).Contents (Elt F) → (⟨S768x65536, .f32⟩ : BufTy).Contents (Elt F) → (⟨S768x65536, .f32⟩ : BufTy).Contents (Elt F))
    :: nullary main_c_1 (constantI S_ 32 1#32) :: varOps (.of main_v4) (.of main_c_1) main_call2

/-- The closing chain's sixteen operations on the three variance vectors. -/
abbrev opsD : List (HloOp τ sig (Elt F)) :=
  [ binary main_v5 main_v2 main_v6 (subf : (⟨S768, .f32⟩ : BufTy).Contents (Elt F) → (⟨S768, .f32⟩ : BufTy).Contents (Elt F) → (⟨S768, .f32⟩ : BufTy).Contents (Elt F)),
    binary main_v6 main_v3 main_v7 (subf : (⟨S768, .f32⟩ : BufTy).Contents (Elt F) → (⟨S768, .f32⟩ : BufTy).Contents (Elt F) → (⟨S768, .f32⟩ : BufTy).Contents (Elt F)),
    nullary main_cst (constant S_ .f32 0x3F000000#32),
    unary main_cst main_v8 (broadcastInDim S768 ![] bcast_S_S768 : (⟨S_, .f32⟩ : BufTy).Contents (Elt F) → (⟨S768, .f32⟩ : BufTy).Contents (Elt F)),
    binary main_v8 main_v7 main_v9 (mulf : (⟨S768, .f32⟩ : BufTy).Contents (Elt F) → (⟨S768, .f32⟩ : BufTy).Contents (Elt F) → (⟨S768, .f32⟩ : BufTy).Contents (Elt F)),
    binary main_v2 main_v3 main_v10 (mulf : (⟨S768, .f32⟩ : BufTy).Contents (Elt F) → (⟨S768, .f32⟩ : BufTy).Contents (Elt F) → (⟨S768, .f32⟩ : BufTy).Contents (Elt F)),
    unary main_v10 main_v11 (Host.absf : (⟨S768, .f32⟩ : BufTy).Contents (Elt F) → (⟨S768, .f32⟩ : BufTy).Contents (Elt F)),
    unary main_v11 main_v12 (Host.sqrt : (⟨S768, .f32⟩ : BufTy).Contents (Elt F) → (⟨S768, .f32⟩ : BufTy).Contents (Elt F)),
    binary main_v9 main_v12 main_v13 (Host.divf : (⟨S768, .f32⟩ : BufTy).Contents (Elt F) → (⟨S768, .f32⟩ : BufTy).Contents (Elt F) → (⟨S768, .f32⟩ : BufTy).Contents (Elt F)),
    nullary main_cst_2 (constant S_ .f32 0x3F800000#32),
    unary main_cst_2 main_v14 (broadcastInDim S768 ![] bcast_S_S768 : (⟨S_, .f32⟩ : BufTy).Contents (Elt F) → (⟨S768, .f32⟩ : BufTy).Contents (Elt F)),
    binary main_v14 main_v13 main_v15 (subf : (⟨S768, .f32⟩ : BufTy).Contents (Elt F) → (⟨S768, .f32⟩ : BufTy).Contents (Elt F) → (⟨S768, .f32⟩ : BufTy).Contents (Elt F)),
    nullary main_cst_3 (constant S_ .f32 0x00000000#32),
    binary main_v15 main_cst_3 main_v16 ((fun x v => Host.reduceAdd x v reducesTo_S768_S_d0 h_S_) : (⟨S768, .f32⟩ : BufTy).Contents (Elt F) → (⟨S_, .f32⟩ : BufTy).Contents (Elt F) → (⟨S_, .f32⟩ : BufTy).Contents (Elt F)),
    nullary main_cst_4 (constant S_ .f32 0x44400000#32),
    binary main_v16 main_cst_4 main_v17 (Host.divf : (⟨S_, .f32⟩ : BufTy).Contents (Elt F) → (⟨S_, .f32⟩ : BufTy).Contents (Elt F) → (⟨S_, .f32⟩ : BufTy).Contents (Elt F)) ]

/-- @main's ninety-one operations, in order. -/
abbrev ops : List (HloOp τ sig (Elt F)) := ops0 ++ (opsA ++ (opsB ++ (opsC ++ opsD)))

/-- Two lines run one after the other leave what the second leaves from what the first left. -/
theorem after_append {τ : Topo} {sig : RefSig} {Val : EltTy → Type} :
    ∀ (l₁ l₂ : List (HloOp τ sig Val)) (V : Valuation τ sig Val), after (l₁ ++ l₂) V = after l₂ (after l₁ V)
  | [], _, _ => rfl
  | op :: l, l₂, V => by rw [List.cons_append, after_cons, after_cons, after_append l l₂]

/-- The variance function's body is the line of its twenty operations and the select function's three. -/
theorem var_eq (a0 : TRef sig ⟨S768x65536, .f32⟩) (a1 : TRef sig ⟨S_, .i32⟩) (φ : fn_var.Bufs) :
    fn_var.body (F := F) a0 a1 φ = seq (varOps a0 a1 φ) := by
  simp only [varOps, whereOps, List.cons_append, List.nil_append]
  simp only [fn_var.body, fn_where.body, seq, bind_assoc, pure_bind]

/-- @main is that straight line: each call is the callee's line over the call's buffers, and both sides are one
    chain of steps once sequencing is reassociated. -/
theorem main_eq (c : Dev nD) : main (F := F) c = seq ops := by
  simp only [ops, seq_append]
  simp only [main, var_eq, ops0, opsA, opsB, opsC, opsD, seq, bind_assoc, pure_bind]

/-! ## The operations touch TensorCore buffers only, and each determines its results -/

theorem varOps_sub (a0 : TRef sig ⟨S768x65536, .f32⟩) (a1 : TRef sig ⟨S_, .i32⟩) (φ : fn_var.Bufs) :
    (varOps (F := F) a0 a1 φ).Forall fun op => op.bufs ⊆ tcRefs τ sig :=
  ⟨nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub ..⟩

theorem varOps_fresh (a0 : TRef sig ⟨S768x65536, .f32⟩) (a1 : TRef sig ⟨S_, .i32⟩) (φ : fn_var.Bufs) :
    (varOps (F := F) a0 a1 φ).Forall fun op => op.fresh = ∅ :=
  ⟨rfl, rfl, rfl, rfl, rfl, rfl, rfl, rfl, rfl, rfl, rfl, rfl, rfl, rfl, rfl, rfl, rfl, rfl, rfl, rfl, rfl, rfl⟩

theorem ops_sub : (ops : List (HloOp τ sig (Elt F))).Forall fun op => op.bufs ⊆ tcRefs τ sig :=
  List.forall_append.2 ⟨⟨reshape_bufs_sub .., reshape_bufs_sub ..⟩,
    List.forall_append.2 ⟨(List.forall_cons _ _ _).2 ⟨nullary_bufs_sub .., varOps_sub ..⟩,
    List.forall_append.2 ⟨(List.forall_cons _ _ _).2 ⟨nullary_bufs_sub .., varOps_sub ..⟩,
    List.forall_append.2 ⟨(List.forall_cons _ _ _).2 ⟨binary_bufs_sub .., (List.forall_cons _ _ _).2 ⟨nullary_bufs_sub .., varOps_sub ..⟩⟩,
      ⟨binary_bufs_sub .., binary_bufs_sub .., nullary_bufs_sub .., unary_bufs_sub .., binary_bufs_sub .., binary_bufs_sub ..,
        unary_bufs_sub .., unary_bufs_sub .., binary_bufs_sub .., nullary_bufs_sub .., unary_bufs_sub .., binary_bufs_sub ..,
        nullary_bufs_sub .., binary_bufs_sub .., nullary_bufs_sub .., binary_bufs_sub ..⟩⟩⟩⟩⟩

theorem ops_fresh : ∀ op ∈ (ops : List (HloOp τ sig (Elt F))), op.fresh = ∅ :=
  List.forall_iff_forall_mem.1 <|
  List.forall_append.2 ⟨⟨rfl, rfl⟩,
    List.forall_append.2 ⟨(List.forall_cons _ _ _).2 ⟨rfl, varOps_fresh ..⟩,
    List.forall_append.2 ⟨(List.forall_cons _ _ _).2 ⟨rfl, varOps_fresh ..⟩,
    List.forall_append.2 ⟨(List.forall_cons _ _ _).2 ⟨rfl, (List.forall_cons _ _ _).2 ⟨rfl, varOps_fresh ..⟩⟩,
      ⟨rfl, rfl, rfl, rfl, rfl, rfl, rfl, rfl, rfl, rfl, rfl, rfl, rfl, rfl, rfl, rfl⟩⟩⟩⟩⟩

theorem scopedRefs_eq : (Finset.univ.filter fun b : Ref sig .tc => b.isScoped) = ∅ := by decide
theorem scopedSems_eq : (Finset.univ.filter fun sm : SemLoc sig => sm.isScoped .tc) = ∅ := by decide

/-- On every device, from any memory with zero counters: every weakly fair execution of @main terminates, and every
    final state has each TensorCore buffer at what the line of operations leaves there from the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## What one call computes, as one term -/

/-- The divisor n − ddof: the sample count's float word minus the integer word 1 converted. -/
def divisor : FVec F S_ .f32 := subf (constant S_ .f32 0x47800000#32) (sitofp .f32 (constantI S_ 32 1#32))

/-- The samples centred at their row's mean: the row sums over the sample count, broadcast back over the samples,
    subtracted. -/
def centred (A : FVec F S768x65536 .f32) : FVec F S768x65536 .f32 :=
  subf A (broadcastInDim S768x65536 ![0, 1] bcast_S768x1_S768x65536_0_1
    (Host.divf (broadcastInDim S768x1 ![0] bcast_S768_S768x1_0 (Host.reduceAdd A (constant S_ .f32 0x00000000#32) reducesTo_S768x65536_S768_d1 h_S_))
      (broadcastInDim S768x1 ![] bcast_S_S768x1 (constant S_ .f32 0x47800000#32))))

/-- One call of the variance function: where the divisor is positive, the row sums of the squared centred samples
    over the divisor; elsewhere the fill value. -/
def varTerm (A : FVec F S768x65536 .f32) : FVec F S768 .f32 :=
  select (broadcastInDim S768 ![] bcast_S_S768 (cmpf .ogt (divisor (F := F)) (constant S_ .f32 0x00000000#32)))
    (Host.divf (Host.reduceAdd (mulf (centred A) (centred A)) (constant S_ .f32 0x00000000#32) reducesTo_S768x65536_S768_d1 h_S_)
      (broadcastInDim S768 ![] bcast_S_S768 (divisor (F := F))))
    (broadcastInDim S768 ![] bcast_S_S768 (constant S_ .f32 0x7FC00000#32))

end Cert.RefSide

end
-- ==== Proof.LibTypedRefCast.lean ====
/-
  Typed references of a called function's values: the transport of contents to the buffer's own type and back.

  A typed reference carries a buffer together with the fact that the buffer's type is the value's type; contents at
  the value's type are moved to the buffer's type along that fact (`toBuf`) and back (`ofBuf`). Moving there and
  back is the identity (`ofBuf_toBuf`): the two transports are along an equation and its inverse. Stated with the
  buffer and the three facts as separate variables, so that a rewrite finds every literal reference's round trip.
-/
import Idealize.ShloMosaic.Lib.StableHlo

namespace Idealize.ShloMosaic.StableHlo.TRefCast

open Idealize.ShloMosaic Idealize.ShloMosaic.StableHlo

/-- Contents moved to a buffer's own type and back are the contents. -/
theorem ofBuf_toBuf {sig : RefSig} {Val : EltTy → Type} {T : BufTy} (r : Ref sig .tc) (h1 : r.ty = T) (h2 : r.space ≠ .host)
    (h3 : r.isScoped = false) (v : T.Contents Val) :
    (TRef.of r h1 h2 h3).ofBuf ((TRef.of r h1 h2 h3).toBuf v) = v := by
  subst h1; rfl

end Idealize.ShloMosaic.StableHlo.TRefCast
-- ==== Proof.RefRun0.lean ====
/-
  What the two reshapes leave: each input as 768 rows of 65536 samples; the arguments untouched.
-/
import proofs.«102069_j82686710383027_2_alg».proof.Proof.RefOps
import proofs.«102069_j82686710383027_2_alg».proof.Proof.LibTypedRefCast

noncomputable section

namespace Cert.RefSide

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

theorem after0_v0 (W : Valuation τ sig (Elt F)) :
    after ops0 W (main_v0 : DevRef τ sig) = shapeCast S768x65536 (W (main_arg0 : DevRef τ sig)) shapeCasts_S8x16x6x256x256_S768x65536 := by
  simp only [ops0]
  after_results_simp
  rfl

theorem after0_v1 (W : Valuation τ sig (Elt F)) :
    after ops0 W (main_v1 : DevRef τ sig) = shapeCast S768x65536 (W (main_arg1 : DevRef τ sig)) shapeCasts_S8x16x6x256x256_S768x65536 := by
  simp only [ops0]
  after_results_simp
  rfl

theorem after0_arg0 (W : Valuation τ sig (Elt F)) : after ops0 W (main_arg0 : DevRef τ sig) = W (main_arg0 : DevRef τ sig) := by
  simp only [ops0]
  after_results_simp

theorem after0_arg1 (W : Valuation τ sig (Elt F)) : after ops0 W (main_arg1 : DevRef τ sig) = W (main_arg1 : DevRef τ sig) := by
  simp only [ops0]
  after_results_simp

end Cert.RefSide

end
-- ==== Proof.RefRunA.lean ====
/-
  What the first call's piece of the line leaves: the first variance vector in its result buffer, as one term of the
  reshaped first input; the reshaped inputs and the arguments untouched.
-/
import proofs.«102069_j82686710383027_2_alg».proof.Proof.RefOps
import proofs.«102069_j82686710383027_2_alg».proof.Proof.LibTypedRefCast

noncomputable section

namespace Cert.RefSide

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-- After the first call the result buffer holds the variance term of the reshaped first input. -/
theorem afterA_v2 (W : Valuation τ sig (Elt F)) :
    after opsA W (main_v2 : DevRef τ sig) = varTerm (W (main_v0 : DevRef τ sig)) := by
  simp only [opsA, varOps, whereOps, List.cons_append, List.nil_append]
  after_results_simp
  simp only [Idealize.ShloMosaic.StableHlo.TRefCast.ofBuf_toBuf]
  rfl

theorem afterA_v0 (W : Valuation τ sig (Elt F)) : after opsA W (main_v0 : DevRef τ sig) = W (main_v0 : DevRef τ sig) := by
  simp only [opsA, varOps, whereOps, List.cons_append, List.nil_append]
  after_results_simp

theorem afterA_v1 (W : Valuation τ sig (Elt F)) : after opsA W (main_v1 : DevRef τ sig) = W (main_v1 : DevRef τ sig) := by
  simp only [opsA, varOps, whereOps, List.cons_append, List.nil_append]
  after_results_simp

theorem afterA_arg0 (W : Valuation τ sig (Elt F)) : after opsA W (main_arg0 : DevRef τ sig) = W (main_arg0 : DevRef τ sig) := by
  simp only [opsA, varOps, whereOps, List.cons_append, List.nil_append]
  after_results_simp

theorem afterA_arg1 (W : Valuation τ sig (Elt F)) : after opsA W (main_arg1 : DevRef τ sig) = W (main_arg1 : DevRef τ sig) := by
  simp only [opsA, varOps, whereOps, List.cons_append, List.nil_append]
  after_results_simp

end Cert.RefSide

end
-- ==== Proof.RefRunB.lean ====
/-
  What the second call's piece of the line leaves: the second variance vector in its result buffer, as one term of
  the reshaped second input; the first variance vector, the reshaped inputs and the arguments untouched.
-/
import proofs.«102069_j82686710383027_2_alg».proof.Proof.RefOps
import proofs.«102069_j82686710383027_2_alg».proof.Proof.LibTypedRefCast

noncomputable section

namespace Cert.RefSide

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-- After the second call the result buffer holds the variance term of the reshaped second input. -/
theorem afterB_v3 (W : Valuation τ sig (Elt F)) :
    after opsB W (main_v3 : DevRef τ sig) = varTerm (W (main_v1 : DevRef τ sig)) := by
  simp only [opsB, varOps, whereOps, List.cons_append, List.nil_append]
  after_results_simp
  simp only [Idealize.ShloMosaic.StableHlo.TRefCast.ofBuf_toBuf]
  rfl

theorem afterB_v2 (W : Valuation τ sig (Elt F)) : after opsB W (main_v2 : DevRef τ sig) = W (main_v2 : DevRef τ sig) := by
  simp only [opsB, varOps, whereOps, List.cons_append, List.nil_append]
  after_results_simp

theorem afterB_v0 (W : Valuation τ sig (Elt F)) : after opsB W (main_v0 : DevRef τ sig) = W (main_v0 : DevRef τ sig) := by
  simp only [opsB, varOps, whereOps, List.cons_append, List.nil_append]
  after_results_simp

theorem afterB_v1 (W : Valuation τ sig (Elt F)) : after opsB W (main_v1 : DevRef τ sig) = W (main_v1 : DevRef τ sig) := by
  simp only [opsB, varOps, whereOps, List.cons_append, List.nil_append]
  after_results_simp

theorem afterB_arg0 (W : Valuation τ sig (Elt F)) : after opsB W (main_arg0 : DevRef τ sig) = W (main_arg0 : DevRef τ sig) := by
  simp only [opsB, varOps, whereOps, List.cons_append, List.nil_append]
  after_results_simp

theorem afterB_arg1 (W : Valuation τ sig (Elt F)) : after opsB W (main_arg1 : DevRef τ sig) = W (main_arg1 : DevRef τ sig) := by
  simp only [opsB, varOps, whereOps, List.cons_append, List.nil_append]
  after_results_simp

end Cert.RefSide

end
-- ==== Proof.RefRunC.lean ====
/-
  What the third call's piece of the line leaves: the third variance vector in its result buffer, as one term of the
  sum of the reshaped inputs; the first two variance vectors and the arguments untouched.
-/
import proofs.«102069_j82686710383027_2_alg».proof.Proof.RefOps
import proofs.«102069_j82686710383027_2_alg».proof.Proof.LibTypedRefCast

noncomputable section

namespace Cert.RefSide

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-- After the sum and the third call the result buffer holds the variance term of the sum of the reshaped inputs. -/
theorem afterC_v5 (W : Valuation τ sig (Elt F)) :
    after opsC W (main_v5 : DevRef τ sig) = varTerm (addf (W (main_v0 : DevRef τ sig)) (W (main_v1 : DevRef τ sig))) := by
  simp only [opsC, varOps, whereOps, List.cons_append, List.nil_append]
  after_results_simp
  simp only [Idealize.ShloMosaic.StableHlo.TRefCast.ofBuf_toBuf]
  rfl

theorem afterC_v2 (W : Valuation τ sig (Elt F)) : after opsC W (main_v2 : DevRef τ sig) = W (main_v2 : DevRef τ sig) := by
  simp only [opsC, varOps, whereOps, List.cons_append, List.nil_append]
  after_results_simp

theorem afterC_v3 (W : Valuation τ sig (Elt F)) : after opsC W (main_v3 : DevRef τ sig) = W (main_v3 : DevRef τ sig) := by
  simp only [opsC, varOps, whereOps, List.cons_append, List.nil_append]
  after_results_simp

theorem afterC_arg0 (W : Valuation τ sig (Elt F)) : after opsC W (main_arg0 : DevRef τ sig) = W (main_arg0 : DevRef τ sig) := by
  simp only [opsC, varOps, whereOps, List.cons_append, List.nil_append]
  after_results_simp

theorem afterC_arg1 (W : Valuation τ sig (Elt F)) : after opsC W (main_arg1 : DevRef τ sig) = W (main_arg1 : DevRef τ sig) := by
  simp only [opsC, varOps, whereOps, List.cons_append, List.nil_append]
  after_results_simp

end Cert.RefSide

end
-- ==== Proof.RefRunD.lean ====
/-
  What the closing chain leaves: in the result buffer, the closing function of the three variance vectors; the
  arguments untouched. The closing function is cited by name and its sixteen operations are matched once, here.
-/
import proofs.«102069_j82686710383027_2_alg».proof.Proof.RefOps
import proofs.«102069_j82686710383027_2_alg».proof.Proof.LibTypedRefCast
import proofs.«102069_j82686710383027_2_alg».proof.Proof.Spec

noncomputable section

namespace Cert.RefSide

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-- After the closing chain the result buffer holds the closing function of the three variance vectors. -/
theorem afterD_v17 (W : Valuation τ sig (Elt Ideal)) :
    after (opsD (F := Ideal)) W (main_v17 : DevRef τ sig)
      = Cert.Spec.finalChain bcast_S_S768 reducesTo_S768_S_d0 h_S_ (W (main_v2 : DevRef τ sig)) (W (main_v3 : DevRef τ sig))
          (W (main_v5 : DevRef τ sig)) := by
  simp only [opsD]
  after_results_simp
  rfl

theorem afterD_arg0 (W : Valuation τ sig (Elt F)) : after opsD W (main_arg0 : DevRef τ sig) = W (main_arg0 : DevRef τ sig) := by
  simp only [opsD]
  after_results_simp

theorem afterD_arg1 (W : Valuation τ sig (Elt F)) : after opsD W (main_arg1 : DevRef τ sig) = W (main_arg1 : DevRef τ sig) := by
  simp only [opsD]
  after_results_simp

end Cert.RefSide

end
-- ==== Proof.RefRun.lean ====
/-
  The run of the reference program, read at its result.

  The line of operations is five consecutive pieces; what the whole line leaves in a buffer is what the last piece
  leaves from what the pieces before it left. Piece by piece: the closing chain leaves the closing function of the
  three variance vectors; each call leaves its variance vector, a term of its operand, and touches no other vector;
  the reshapes leave the inputs as rows. So the result buffer ends at the closing function of the three variance
  terms of the reshaped inputs (and of their sum), and no piece writes an argument.
-/
import proofs.«102069_j82686710383027_2_alg».proof.Proof.RefOps
import proofs.«102069_j82686710383027_2_alg».proof.Proof.RefRun0
import proofs.«102069_j82686710383027_2_alg».proof.Proof.RefRunA
import proofs.«102069_j82686710383027_2_alg».proof.Proof.RefRunB
import proofs.«102069_j82686710383027_2_alg».proof.Proof.RefRunC
import proofs.«102069_j82686710383027_2_alg».proof.Proof.RefRunD
import proofs.«102069_j82686710383027_2_alg».proof.Proof.Spec

noncomputable section

namespace Cert.RefSide

open Cert.ReferenceIdeal Cert.ReferenceIdeal.Facts₀ Idealize.ShloMosaic Idealize.ShloMosaic.TcCoe Idealize.SL.Sem Idealize.ShloMosaic.StableHlo

variable [Cert.ReferenceIdeal.Facts]

/-- An input flattened to its 768 rows of 65536 samples. -/
abbrev flat (a : FVec Ideal S8x16x6x256x256 .f32) : FVec Ideal S768x65536 .f32 :=
  shapeCast S768x65536 a shapeCasts_S8x16x6x256x256_S768x65536

/-- What the whole line leaves in the result buffer: the closing function of the variance terms of the two
    flattened inputs and of their sum. -/
theorem after_v17 (V : Valuation τ sig (Elt Ideal)) :
    after (ops (F := Ideal)) V (main_v17 : DevRef τ sig)
      = Cert.Spec.finalChain bcast_S_S768 reducesTo_S768_S_d0 h_S_
          (varTerm (flat (V (main_arg0 : DevRef τ sig))))
          (varTerm (flat (V (main_arg1 : DevRef τ sig))))
          (varTerm (addf (flat (V (main_arg0 : DevRef τ sig))) (flat (V (main_arg1 : DevRef τ sig))))) := by
  simp only [ops, after_append]
  rw [afterD_v17, afterC_v5, afterC_v2, afterC_v3, afterB_v3, afterB_v2, afterB_v0, afterB_v1, afterA_v2, afterA_v0, afterA_v1,
    after0_v0, after0_v1]

/-- No piece of the line writes the first argument. -/
theorem after_arg0 (V : Valuation τ sig (Elt Ideal)) :
    after (ops (F := Ideal)) V (main_arg0 : DevRef τ sig) = V (main_arg0 : DevRef τ sig) := by
  simp only [ops, after_append]
  rw [afterD_arg0, afterC_arg0, afterB_arg0, afterA_arg0, after0_arg0]

/-- No piece of the line writes the second argument. -/
theorem after_arg1 (V : Valuation τ sig (Elt Ideal)) :
    after (ops (F := Ideal)) V (main_arg1 : DevRef τ sig) = V (main_arg1 : DevRef τ sig) := by
  simp only [ops, after_append]
  rw [afterD_arg1, afterC_arg1, afterB_arg1, afterA_arg1, after0_arg1]

/-- On every device, from any memory with zero counters: every weakly fair execution of @main terminates with the
    result at the closing function of the three variance terms of the flattened arguments, and the arguments
    unchanged. -/
theorem run_term (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v17)
          = Cert.Spec.finalChain bcast_S_S768 reducesTo_S768_S_d0 h_S_
              (varTerm (flat (m ((c.tc : Thread nD τ).loc main_arg0))))
              (varTerm (flat (m ((c.tc : Thread nD τ).loc main_arg1))))
              (varTerm (addf (flat (m ((c.tc : Thread nD τ).loc main_arg0))) (flat (m ((c.tc : Thread nD τ).loc main_arg1)))))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := Ideal)) _ _).mono (fun _ h c => ⟨(h c main_v17).trans (after_v17 _),
      (h c main_arg0).trans (after_arg0 _),
      (h c main_arg1).trans (after_arg1 _)⟩)
    (run_main m ρ)

end Cert.RefSide

end
-- ==== Proof.RefValue.lean ====
/-
  The reference's result, read as mathematics.

  One call of the variance function on an array of 768 rows of 65536 samples is, row by row, the two-pass unbiased
  variance: the divisor n − 1 is positive (the sample count's float word denotes 65536, and the integer word 1
  converts to the real 1), so the select takes the quotient; the host's sum over the samples from the zero word is
  the sum over the row; the mean is the row's sum over the sample count, broadcast back over the samples; and the
  quotient is the sum of the squared centred samples over n − 1. The three variance vectors then enter the closing
  function, which is cited by name and not opened.
-/
import proofs.«102069_j82686710383027_2_alg».proof.Proof.RefRun
import proofs.«102069_j82686710383027_2_alg».proof.Proof.Spec
import Idealize.ShloMosaic.PureOps.Ideal.Laws
import Idealize.ShloMosaic.Lib.ValueIdx
import Idealize.ShloMosaic.Lib.Pipeline.Value

noncomputable section

open Idealize.ShloMosaic Idealize.SL.Sem Cert.ReferenceIdeal Cert.ReferenceIdeal.Facts₀

variable [Cert.ReferenceIdeal.Facts]

namespace Cert.RefSide

open Idealize.ShloMosaic.ValueIdx

/-- The sample count's float word denotes 65536. -/
theorem cN_eq : Cert.Spec.cN = ((65536 : ℝ) : EReal) := by
  unfold Cert.Spec.cN; simp [Ideal.ofBits, Ideal.ieee, -EReal.coe_mul]; norm_num

/-- The divisor n − 1 is positive. -/
theorem divisor_pos : (0 : EReal) < Cert.Spec.cN - 1 := by
  rw [cN_eq]
  have h : ((65536 : ℝ) : EReal) - 1 = ((65535 : ℝ) : EReal) := by
    rw [← EReal.coe_one, ← EReal.coe_sub]; norm_num
  rw [h]; exact_mod_cast (by norm_num : (0 : ℝ) < 65535)

/-- The divisor's one element: the sample count minus the integer word 1 read as the real 1. -/
theorem divisor_apply (j : S_.Idx) : divisor (F := Ideal) j = Cert.Spec.cN - 1 := by
  show Ideal.ofBits .f32 0x47800000#32 - (((1#32 : BitVec 32).toInt : ℝ) : EReal) = _
  have h1 : ((1#32 : BitVec 32).toInt) = 1 := by decide
  rw [h1]; simp [Cert.Spec.cN]

/-- A row index with a sample coordinate inserted on the reduced axis is the pair. -/
theorem lift_ix (h : S768x65536.Reduces [1] S768) (r : Fin 768) (k : Fin 65536) :
    h.lift (ix1 r) k = ix2 r k := by
  funext c
  match c with
  | ⟨0, _⟩ => rfl
  | ⟨1, _⟩ => rfl

/-- The host's sum over the samples from the zero word, read at a row: the sum over the row. -/
theorem rowReduce_apply (X : FVec Ideal S768x65536 .f32) (r : Fin 768) :
    Host.reduceAdd (F := Ideal) X (constant (F := Ideal) S_ .f32 0x00000000#32) reducesTo_S768x65536_S768_d1 h_S_ (ix1 r)
      = ∑ k : Fin 65536, X (ix2 r k) := by
  unfold Host.reduceAdd
  rw [Ideal.hostReduceAdd_def, Ideal.hostReduceAdd_single _ (by decide : S768x65536.Reduces [1] S768), constant_apply,
    Ideal.ofBits_zero_f32, zero_add]
  exact Finset.sum_congr rfl fun k _ => congrArg X (lift_ix _ r k)

/-- A centred sample: the sample minus its row's sum over the sample count. -/
theorem centred_apply (A : FVec Ideal S768x65536 .f32) (r : Fin 768) (k : Fin 65536) :
    centred A (ix2 r k) = A (ix2 r k) - Ideal.div (Cert.Spec.rowSum A r) Cert.Spec.cN := by
  unfold centred
  rw [subf_apply]
  refine congrArg (fun z => A (ix2 r k) - z) ?_
  rw [broadcastInDim_apply (s := S768x1) (t := S768x65536) ![0, 1] bcast_S768x1_S768x65536_0_1 _ (ix2 r k) (ix2 r (0 : Fin 1))
    (fun a => match a with | ⟨0, _⟩ => rfl | ⟨1, _⟩ => rfl)]
  show Ideal.div (broadcastInDim (s := S768) S768x1 ![0] bcast_S768_S768x1_0 _ (ix2 r (0 : Fin 1)))
      (broadcastInDim (s := S_) S768x1 ![] bcast_S_S768x1 _ (ix2 r (0 : Fin 1))) = _
  rw [broadcastInDim_apply (s := S768) (t := S768x1) ![0] bcast_S768_S768x1_0 _ (ix2 r (0 : Fin 1)) (ix1 r) (fun a => match a with | ⟨0, _⟩ => rfl),
    broadcastInDim_apply (s := S_) (t := S768x1) ![] bcast_S_S768x1 _ (ix2 r (0 : Fin 1)) ix0 (fun a => a.elim0), rowReduce_apply]
  rfl

/-- One call of the variance function read at a row: the two-pass unbiased variance of the row. -/
theorem varTerm_apply (A : FVec Ideal S768x65536 .f32) (r : Fin 768) :
    varTerm A (ix1 r) = Cert.Spec.varCentered A r := by
  have hpred : broadcastInDim (s := S_) S768 ![] bcast_S_S768
      (cmpf .ogt (divisor (F := Ideal)) (constant (F := Ideal) S_ .f32 0x00000000#32)) (ix1 r) = 1#1 := by
    rw [broadcastInDim_apply (s := S_) (t := S768) ![] bcast_S_S768 _ (ix1 r) ix0 (fun a => a.elim0)]
    show Ideal.cmp .ogt (divisor (F := Ideal) ix0) (Ideal.ofBits .f32 0x00000000#32) = 1#1
    rw [divisor_apply, Ideal.ofBits_zero_f32]
    simp [Ideal.cmp, divisor_pos]
  unfold varTerm
  rw [select_apply, hpred, select_one]
  show Ideal.div (Host.reduceAdd (F := Ideal) _ _ reducesTo_S768x65536_S768_d1 h_S_ (ix1 r))
      (broadcastInDim (s := S_) S768 ![] bcast_S_S768 (divisor (F := Ideal)) (ix1 r)) = _
  rw [broadcastInDim_apply (s := S_) (t := S768) ![] bcast_S_S768 _ (ix1 r) ix0 (fun a => a.elim0), divisor_apply, rowReduce_apply]
  unfold Cert.Spec.varCentered
  refine congrArg (fun z => Ideal.div z (Cert.Spec.cN - 1)) (Finset.sum_congr rfl fun k _ => ?_)
  rw [mulf_apply, centred_apply]

/-- One call of the variance function, as the vector of the rows' two-pass variances. -/
theorem varTerm_eq (A : FVec Ideal S768x65536 .f32) :
    varTerm A = fun i : Cert.Spec.SR.Idx => Cert.Spec.varCentered A (i 0) :=
  funext fun i => (congrArg (varTerm A) (eq_ix1 i)).trans (varTerm_apply A (i 0))

/-- The closing function of the three variance terms is the closing function of the rows' two-pass variances. -/
theorem value_eq (A B : FVec Ideal S768x65536 .f32) :
    Cert.Spec.finalChain bcast_S_S768 reducesTo_S768_S_d0 h_S_ (varTerm A) (varTerm B) (varTerm (addf A B))
      = Cert.Spec.finalChain bcast_S_S768 reducesTo_S768_S_d0 h_S_
          (fun i => Cert.Spec.varCentered A (i 0)) (fun i => Cert.Spec.varCentered B (i 0))
          (fun i => Cert.Spec.varCentered (fun j => A j + B j) (i 0)) := by
  rw [varTerm_eq A, varTerm_eq B, varTerm_eq (addf A B)]
  rfl

/-- an input flattened to its 768 rows -/
abbrev rows (a : FVec Ideal S8x16x6x256x256 .f32) : Cert.Spec.SX.Idx → EReal :=
  shapeCast Cert.Spec.SX a shapeCasts_S8x16x6x256x256_S768x65536

/-- On every device, from any memory with zero counters: every weakly fair execution of the reference terminates
    with its result at the closing function of the rows' two-pass variances of the first argument, of the second and
    of their sum, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v17)
          = Cert.Spec.finalChain bcast_S_S768 reducesTo_S768_S_d0 h_S_
              (fun i => Cert.Spec.varCentered (rows (m ((c.tc : Thread nD τ).loc main_arg0))) (i 0))
              (fun i => Cert.Spec.varCentered (rows (m ((c.tc : Thread nD τ).loc main_arg1))) (i 0))
              (fun i => Cert.Spec.varCentered (fun j => rows (m ((c.tc : Thread nD τ).loc main_arg0)) j + rows (m ((c.tc : Thread nD τ).loc main_arg1)) j) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := Ideal)) _ _).mono (fun _ h c => ⟨((h c).1).trans (value_eq _ _), (h c).2⟩) (run_term m ρ)

end Cert.RefSide

end
-- ==== Proof.VarAlgebra.lean ====
/-
  The algebra behind the two ways of computing a row's unbiased variance, over the extended reals.

  With n samples x_k, all of them real, and s = Σ x_k:
      Σ_k (x_k − s/n)² = Σ_k x_k² − 2·(s/n)·Σ_k x_k + n·(s/n)² = Σ_k x_k² − s²/n,
  so the two-pass variance (centre at the mean, sum the squares, divide by n − 1) equals the variance formed from the
  two moments s and Σ x_k². For a row of X + Y the moments are Σ(x_k + y_k) = Σx_k + Σy_k and
  Σ(x_k + y_k)² = Σx_k² + 2·Σx_k·y_k + Σy_k².

  Every sample being a real, each sum, product, difference and quotient by a nonzero real is the image of the
  corresponding real expression, so each identity is proved in ℝ and carried over by the coercion.
-/
import proofs.«102069_j82686710383027_2_alg».proof.Proof.Spec

noncomputable section

namespace Cert.Spec

open Idealize.ShloMosaic

/-! ### The three float words as reals -/

/-- The word 0x47800000 denotes 2^16 = 65536. -/
theorem cN_eq : cN = ((65536 : ℝ) : EReal) := by
  simp [cN, Ideal.ofBits, Ideal.ieee, -EReal.coe_mul]; norm_num

/-- The word 0x477FFF00 denotes 65535. -/
theorem cN1_eq : cN1 = ((65535 : ℝ) : EReal) := by
  simp [cN1, Ideal.ofBits, Ideal.ieee, -EReal.coe_mul]; norm_num

/-- The word 0x40000000 denotes 2. -/
theorem c2_eq : c2 = ((2 : ℝ) : EReal) := by
  simp [c2, Ideal.ofBits, Ideal.ieee, -EReal.coe_mul]; norm_num

/-! ### Sums of reals inside the extended reals -/

/-- The coercion ℝ → EReal commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ### The identity in ℝ -/

/-- Σ (x_k − s/n)² = Σ x_k² − s²/n when n is the number of samples (division written as the product with 1/n). -/
theorem real_centered_sum {ι : Type*} [Fintype ι] (x : ι → ℝ) (n : ℝ) (hn : n = Fintype.card ι) (hn0 : n ≠ 0) :
    ∑ k, (x k - (∑ j, x j) * (1 / n)) * (x k - (∑ j, x j) * (1 / n))
      = ∑ k, x k * x k - (∑ j, x j) * (∑ j, x j) * (1 / n) := by
  generalize hs : ∑ j, x j = s
  have h1 : ∀ k, (x k - s * (1 / n)) * (x k - s * (1 / n))
      = x k * x k - (2 * (s * (1 / n))) * x k + (s * (1 / n)) * (s * (1 / n)) := fun k => by ring
  simp only [h1, Finset.sum_add_distrib, Finset.sum_sub_distrib, ← Finset.mul_sum, Finset.sum_const,
    Finset.card_univ, nsmul_eq_mul, ← hn, hs]
  field_simp
  ring

/-! ### The same identity over the extended reals, for any finite index type -/

/-- The two-pass variance of real samples equals the variance from the two moments. -/
theorem centered_eq_moments {ι : Type*} [Fintype ι] (x : ι → ℝ) (n n1 : ℝ) (hn : n = Fintype.card ι) (hn0 : n ≠ 0)
    (hn1 : n - 1 = n1) (hn10 : n1 ≠ 0) :
    Ideal.div (∑ k, ((x k : EReal) - Ideal.div (∑ j, (x j : EReal)) (n : EReal))
        * ((x k : EReal) - Ideal.div (∑ j, (x j : EReal)) (n : EReal))) ((n : EReal) - 1)
      = Ideal.div ((∑ k, (x k : EReal) * (x k : EReal))
        - Ideal.div ((∑ j, (x j : EReal)) * (∑ j, (x j : EReal))) (n : EReal)) (n1 : EReal) := by
  rw [← EReal.coe_one, ← EReal.coe_sub, hn1]
  simp only [← coe_finset_sum, ← EReal.coe_mul, Ideal.div_coe hn0, Ideal.div_coe hn10, ← EReal.coe_sub]
  rw [real_centered_sum x n hn hn0]

/-- The moments of a row of sums: Σ(x+y) = Σx + Σy. -/
theorem sum_add_coe {ι : Type*} [Fintype ι] (x y : ι → ℝ) :
    ∑ k, (((x k + y k : ℝ)) : EReal) = (∑ k, (x k : EReal)) + ∑ k, (y k : EReal) := by
  simp only [EReal.coe_add, Finset.sum_add_distrib]

/-- The moments of a row of sums: Σ(x+y)² = Σx² + 2·Σxy + Σy². -/
theorem sum_sq_add_coe {ι : Type*} [Fintype ι] (x y : ι → ℝ) :
    ∑ k, (((x k + y k : ℝ)) : EReal) * (((x k + y k : ℝ)) : EReal)
      = ((∑ k, (x k : EReal) * (x k : EReal)) + ((2 : ℝ) : EReal) * ∑ k, (x k : EReal) * (y k : EReal))
        + ∑ k, (y k : EReal) * (y k : EReal) := by
  simp only [← EReal.coe_mul, ← coe_finset_sum, ← EReal.coe_add]
  rw [EReal.coe_eq_coe_iff, Finset.mul_sum, ← Finset.sum_add_distrib, ← Finset.sum_add_distrib]
  exact Finset.sum_congr rfl fun k _ => by ring

/-! ### The two deliverables, at 65536 samples per row -/

theorem varCentered_eq_varMoments (X : SX.Idx → EReal) (hX : ∀ i, ∃ x : ℝ, X i = (x : EReal)) (r : Fin 768) :
    varCentered X r = varMoments (rowSum X r) (rowDot X X r) := by
  choose x hx using hX
  simp only [varCentered, rowSum, rowDot, varMoments, hx, cN_eq, cN1_eq]
  exact centered_eq_moments (fun k : Fin 65536 => x (ValueIdx.ix2 r k)) 65536 65535
    (by simp) (by norm_num) (by norm_num) (by norm_num)

theorem varCentered_add_eq_varMomentsSum (X Y : SX.Idx → EReal) (hX : ∀ i, ∃ x : ℝ, X i = (x : EReal))
    (hY : ∀ i, ∃ y : ℝ, Y i = (y : EReal)) (r : Fin 768) :
    varCentered (fun j => X j + Y j) r
      = varMomentsSum (rowSum X r) (rowDot X X r) (rowSum Y r) (rowDot Y Y r) (rowDot X Y r) := by
  choose x hx using hX
  choose y hy using hY
  simp only [varCentered, rowSum, rowDot, varMomentsSum, hx, hy, cN_eq, cN1_eq, c2_eq, ← EReal.coe_add]
  rw [← sum_add_coe (fun k : Fin 65536 => x (ValueIdx.ix2 r k)) (fun k : Fin 65536 => y (ValueIdx.ix2 r k)),
    ← sum_sq_add_coe (fun k : Fin 65536 => x (ValueIdx.ix2 r k)) (fun k : Fin 65536 => y (ValueIdx.ix2 r k))]
  exact centered_eq_moments (fun k : Fin 65536 => x (ValueIdx.ix2 r k) + y (ValueIdx.ix2 r k)) 65536 65535
    (by simp) (by norm_num) (by norm_num) (by norm_num)

end Cert.Spec

end
-- ==== Proof.Bridge.lean ====
/-
  The two sides meet: for inputs whose every entry is a real number, the two-pass unbiased variance of a row (the
  squares of the samples centred at the row's mean, summed, over n − 1) equals the variance formed from the row's
  moments, (Σx² − (Σx)²/n)/(n − 1); and for the sum of two inputs the moments are Σx + Σy and Σx² + 2Σxy + Σy². The
  three variance vectors being equal, the closing function of the reference's three is the kernel's result. Both
  programs flatten an input to its 768 rows by the same reshape, so the rows are the same function of the input.
-/
import proofs.«102069_j82686710383027_2_alg».proof.Proof.KernelResult
import proofs.«102069_j82686710383027_2_alg».proof.Proof.RefValue
import proofs.«102069_j82686710383027_2_alg».proof.Proof.VarAlgebra

noncomputable section

namespace Cert.Bridge

open Idealize.ShloMosaic

/-- The two programs flatten an input to the same rows. -/
theorem rows_eq [Cert.ReferenceIdeal.Facts] (a : FVec Ideal Cert.KernelIdeal.S8x16x6x256x256 .f32) :
    Cert.RefSide.rows a = Cert.KernelIdeal.Value.rows a := rfl

/-- The rows of an input of reals are reals: a row entry is an entry of the input. -/
theorem rows_real (a : FVec Ideal Cert.KernelIdeal.S8x16x6x256x256 .f32) (h : ∀ i, ∃ x : ℝ, a i = (x : EReal)) :
    ∀ j, ∃ x : ℝ, Cert.KernelIdeal.Value.rows a j = (x : EReal) :=
  fun _ => h _

/-- The closing function at equal variance vectors. -/
theorem finalChain_congr (hb : Cert.Spec.S0.BroadcastsInDim Cert.Spec.SR (![] : Fin 0 → Fin Cert.Spec.SR.rank))
    (hr : Cert.Spec.SR.ReducesTo [0] Cert.Spec.S0) (h0 : 0 < Cert.Spec.S0.numel)
    {a a' b b' c c' : FVec Ideal Cert.Spec.SR .f32} (ha : a = a') (hb' : b = b') (hc : c = c') :
    Cert.Spec.finalChain hb hr h0 a b c = Cert.Spec.finalChain hb hr h0 a' b' c' := by
  subst ha hb' hc; rfl

/-- For inputs of reals, the closing function of the rows' two-pass variances (of the first input, of the second, of
    their sum) is the kernel's result: the closing function of the variances formed from the rows' moments. -/
theorem result_eq [Cert.ReferenceIdeal.Facts] (a0 a1 : FVec Ideal Cert.KernelIdeal.S8x16x6x256x256 .f32)
    (h0 : ∀ i, ∃ x : ℝ, a0 i = (x : EReal)) (h1 : ∀ i, ∃ y : ℝ, a1 i = (y : EReal)) :
    Cert.Spec.finalChain Cert.ReferenceIdeal.Facts₀.bcast_S_S768 Cert.ReferenceIdeal.Facts₀.reducesTo_S768_S_d0 Cert.ReferenceIdeal.Facts₀.h_S_
        (fun i => Cert.Spec.varCentered (Cert.RefSide.rows a0) (i 0)) (fun i => Cert.Spec.varCentered (Cert.RefSide.rows a1) (i 0))
        (fun i => Cert.Spec.varCentered (fun j => Cert.RefSide.rows a0 j + Cert.RefSide.rows a1 j) (i 0))
      = Cert.KernelIdeal.Value.result a0 a1 := by
  rw [rows_eq a0, rows_eq a1]
  exact finalChain_congr _ _ _
    (funext fun i => Cert.Spec.varCentered_eq_varMoments _ (rows_real a0 h0) (i 0))
    (funext fun i => Cert.Spec.varCentered_eq_varMoments _ (rows_real a1 h1) (i 0))
    (funext fun i => Cert.Spec.varCentered_add_eq_varMomentsSum _ _ (rows_real a0 h0) (rows_real a1 h1) (i 0))

end Cert.Bridge

end
-- ==== Proof.FiniteInputs.lean ====
/-
  The precondition says: |a0| < +∞ at every index and |a1| < +∞ at every index (each "everywhere" a reduction by
  "and" over all five axes, the two results joined by "and"). Over the extended reals |x| is max x (−x), and the
  word 0x7F800000 denotes +∞. An extended real x with max x (−x) < +∞ is neither +∞ (then max x (−x) = +∞) nor −∞
  (then −x = +∞), so it is a real. Hence every entry of both inputs is a real.
-/
import proofs.«102069_j82686710383027_2_alg».proof.Pre_finite_inputs
import proofs.«102069_j82686710383027_2_alg».proof.Proof.Gen.Pre_finite_inputs
import Idealize.ShloMosaic.Lib.ReduceAll
import Idealize.ShloMosaic.Lib.ValueIdx
import Idealize.ShloMosaic.PureOps.Ideal.Laws

noncomputable section

namespace Cert.FiniteInputs

open Idealize.ShloMosaic

/-- The word 0x7F800000 denotes +∞. -/
theorem ofBits_inf : Ideal.ofBits .f32 0x7F800000#32 = (⊤ : EReal) := by
  simp [Ideal.ofBits, Ideal.ieee]

/-- An extended real whose absolute value max x (−x) lies strictly below +∞ is a real. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- One element of the printed comparison |x| < +∞ being true says x is a real. -/
theorem real_of_olt_inf (x : Ideal .f32)
    (h : FloatOps.cmpf .olt (FloatOps.hostAbsf x) (FloatOps.ofBits (F := Ideal) .f32 0x7F800000#32) = 1#1) :
    ∃ r : ℝ, x = (r : EReal) := by
  have h' : Ideal.cmp .olt (max x (-x)) (Ideal.ofBits .f32 0x7F800000#32) = 1#1 := h
  rw [ofBits_inf] at h'
  by_cases hp : max x (-x) < ⊤
  · exact real_of_abs_lt_top x hp
  · exfalso
    simp only [Ideal.cmp, hp, decide_false, BitVec.ofBool_false] at h'
    exact absurd h' (by decide)

/-- The scalar result shape has one index. -/
instance : Subsingleton Cert.Pre_finite_inputs.S_.Idx := ⟨fun a b => funext fun d => d.elim0⟩

theorem of_pre [Cert.Pre_finite_inputs.Facts] (a0 a1 : FVec Ideal Cert.Pre_finite_inputs.S8x16x6x256x256 .f32)
    (h : Cert.Pre_finite_inputs.fn (F := Ideal) a0 a1 = fun _ => 1#1) :
    (∀ i, ∃ x : ℝ, a0 i = (x : EReal)) ∧ (∀ i, ∃ y : ℝ, a1 i = (y : EReal)) := by
  have h0 := congrFun h ValueIdx.ix0
  dsimp only [Cert.Pre_finite_inputs.fn, andi] at h0
  obtain ⟨e0, e1⟩ := IntOp.andi_eq_one.1 h0
  exact ⟨fun i => real_of_olt_inf _ (Host.reduce_andi_all _ _ _ _ _ e0 i),
    fun i => real_of_olt_inf _ (Host.reduce_andi_all _ _ _ _ _ e1 i)⟩

end Cert.FiniteInputs

end
-- ==== Proof.lean ====
/-
  Both programs compute, for each of the 768 rows of 65536 samples, the unbiased variances of the first input, of the
  second and of their sum, and apply one closing function to the three variance vectors. The kernel forms a variance
  from the row's moments, (Σx² − (Σx)²/n)/(n − 1); the reference centres the samples at the row's mean, sums their
  squares and divides by n − 1. On inputs whose entries are all finite the two are equal over the extended reals, so
  the two results are equal; each program leaves its arguments unchanged.
-/
import proofs.«102069_j82686710383027_2_alg».proof.Defs
import proofs.«102069_j82686710383027_2_alg».proof.Proof.Gen.Kernel
import proofs.«102069_j82686710383027_2_alg».proof.Proof.Gen.Kernel.Skeleton
import proofs.«102069_j82686710383027_2_alg».proof.Proof.Gen.Kernel.Launch
import proofs.«102069_j82686710383027_2_alg».proof.Proof.Gen.Kernel.Points
import proofs.«102069_j82686710383027_2_alg».proof.Proof.Gen.Kernel.Frame
import proofs.«102069_j82686710383027_2_alg».proof.Proof.Gen.KernelIdeal
import proofs.«102069_j82686710383027_2_alg».proof.Proof.Gen.KernelIdeal.Skeleton
import proofs.«102069_j82686710383027_2_alg».proof.Proof.Gen.KernelIdeal.Launch
import proofs.«102069_j82686710383027_2_alg».proof.Proof.Gen.KernelIdeal.Points
import proofs.«102069_j82686710383027_2_alg».proof.Proof.Gen.KernelIdeal.Frame
import proofs.«102069_j82686710383027_2_alg».proof.Proof.Gen.ReferenceIdeal
import proofs.«102069_j82686710383027_2_alg».proof.Proof.Gen.Pre_finite_inputs
import proofs.«102069_j82686710383027_2_alg».proof.Proof.KernelValue
import proofs.«102069_j82686710383027_2_alg».proof.Proof.RefValue
import proofs.«102069_j82686710383027_2_alg».proof.Proof.Bridge
import proofs.«102069_j82686710383027_2_alg».proof.Proof.FiniteInputs
import Idealize.ShloMosaic.Adequacy
import Idealize.ShloMosaic.Init

noncomputable section

namespace Cert.Proof

open Idealize.ShloMosaic Idealize.SL.Sem

/-- The kernel program runs and leaves its arguments unchanged. -/
theorem frame_Kernel : Cert.frame_Kernel := fun m ρ _ => Cert.Kernel.Gen.frame m ρ

/-- The idealized kernel program runs and leaves its arguments unchanged. -/
theorem frame_KernelIdeal : Cert.frame_KernelIdeal := fun m ρ _ => Cert.KernelIdeal.Gen.frame m ρ

/-- The reference runs and leaves its arguments unchanged: the last two facts of its run. -/
theorem frame_ReferenceIdeal : Cert.frame_ReferenceIdeal := fun m ρ _ =>
  (θ_run Cert.ReferenceIdeal.defs _ _).mono (fun _ h c => (h c).2) (Cert.RefSide.run m ρ)

/-- The idealization rewrote no operation. -/
theorem preserves : Cert.preserves_Kernel_KernelIdeal := trivial

/-- From memories agreeing on finite arguments both programs run, the kernel's result is the closing function of the
    variances formed from the rows' moments, the reference's the closing function of the rows' two-pass variances, and
    on rows of reals the two are one value; the arguments are unchanged on both sides. -/
theorem algebraic : Cert.algebraic_KernelIdeal_ReferenceIdeal := by
  intro m ρ m' ρ' hpre hagree
  refine ⟨_, Cert.KernelIdeal.Value.run m ρ, ?_⟩
  refine (θ_run Cert.ReferenceIdeal.defs _ _).mono (fun _ h c => ⟨(h c).1.trans ?_, (h c).2⟩) (Cert.RefSide.run m' ρ')
  rw [(hagree c).1, (hagree c).2]
  exact Cert.Bridge.result_eq _ _ (Cert.FiniteInputs.of_pre _ _ (hpre c)).1 (Cert.FiniteInputs.of_pre _ _ (hpre c)).2

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, preserves, algebraic⟩

end Cert.Proof

end
